-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S2x16 : Shape := ⟨2, ![2, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S2x16 : S_.BroadcastsInDim S2x16 (![] : Fin 0 → Fin S2x16.rank)
  reducesTo_S2x16_S_d0_1 : S2x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S2x16 .f32) (main_arg9 : FVec F S16 .f32) (main_v33 : IVec S_ 1) : IVec S_ 1 :=
  let main_v34 : FVec F S2x16 .f32 := Host.absf main_arg8
  let main_cst_12 : FVec F S_ .f32 := constant S_ .f32 0x7F800000#32
  let main_v35 : FVec F S2x16 .f32 := broadcastInDim S2x16 ![] bcast_S_S2x16 main_cst_12
  let main_v36 : IVec S2x16 1 := cmpf .olt main_v34 main_v35
  let main_c_13 : IVec S_ 1 := constantI S_ 1 1#1
  let main_v37 : IVec S_ 1 := (fun x v => Host.reduce IntOp.andi x v reducesTo_S2x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S64 .f32) (main_arg6 : FVec F S64x2 .f32) (main_arg7 : FVec F S2 .f32) (main_arg8 : FVec F S2x16 .f32) (main_arg9 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg6
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x2 .f32) (main_arg7 : FVec F S2 .f32) (main_arg8 : FVec F S2x16 .f32) (main_arg9 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S2x16 : Shape := ⟨2, ![2, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x2 : Shape := ⟨2, ![100000, 2]⟩
abbrev S10000x2 : Shape := ⟨2, ![10000, 2]⟩
abbrev S1700000x2 : Shape := ⟨2, ![1700000, 2]⟩
abbrev S1x2 : Shape := ⟨2, ![1, 2]⟩
abbrev S100000x16 : Shape := ⟨2, ![100000, 16]⟩
abbrev S10000x16 : Shape := ⟨2, ![10000, 16]⟩
abbrev S1x16 : Shape := ⟨2, ![1, 16]⟩

abbrev nBuf : Space → Nat
  | .hbm => 106
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S2x16, .f32⟩
  | .hbm, ⟨9, _⟩ => ⟨S16, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S100000x64, .f32⟩
  | .hbm, ⟨86, _⟩ => ⟨S100000x2, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x2, .f32⟩
  | .hbm, ⟨96, _⟩ => ⟨S1700000x1, .f32⟩
  | .hbm, ⟨97, _⟩ => ⟨S1700000x2, .f32⟩
  | .hbm, ⟨98, _⟩ => ⟨S1700000x2, .f32⟩
  | .hbm, ⟨99, _⟩ => ⟨S_, .f32⟩
  | .hbm, ⟨100, _⟩ => ⟨S100000x2, .f32⟩
  | .hbm, ⟨101, _⟩ => ⟨S1700000x1, .i32⟩
  | .hbm, ⟨102, _⟩ => ⟨S100000x2, .f32⟩
  | .hbm, ⟨103, _⟩ => ⟨S100000x2, .f32⟩
  | .hbm, ⟨104, _⟩ => ⟨S100000x16, .f32⟩
  | .hbm, ⟨105, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x2, .f32⟩
  | .local _ .vmem, ⟨23, _⟩ => ⟨S10000x2, .f32⟩
  | .local _ .vmem, ⟨24, _⟩ => ⟨S10000x2, .f32⟩
  | .local _ .vmem, ⟨25, _⟩ => ⟨S10000x2, .f32⟩
  | .local _ .vmem, ⟨26, _⟩ => ⟨S10000x2, .f32⟩
  | .local _ .vmem, ⟨27, _⟩ => ⟨S2, .f32⟩
  | .local _ .vmem, ⟨28, _⟩ => ⟨S10000x2, .f32⟩
  | .local _ .vmem, ⟨29, _⟩ => ⟨S10000x2, .f32⟩
  | .local _ .vmem, ⟨30, _⟩ => ⟨S10000x2, .f32⟩
  | .local _ .vmem, ⟨31, _⟩ => ⟨S10000x2, .f32⟩
  | .local _ .vmem, ⟨32, _⟩ => ⟨S2x16, .f32⟩
  | .local _ .vmem, ⟨33, _⟩ => ⟨S10000x16, .f32⟩
  | .local _ .vmem, ⟨34, _⟩ => ⟨S10000x16, .f32⟩
  | .local _ .vmem, ⟨35, _⟩ => ⟨S10000x16, .f32⟩
  | .local _ .vmem, ⟨36, _⟩ => ⟨S10000x16, .f32⟩
  | .local _ .vmem, ⟨37, _⟩ => ⟨S16, .f32⟩
  | .local _ .vmem, ⟨38, _⟩ => ⟨S10000x16, .f32⟩
  | .local _ .vmem, ⟨39, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x2 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S16 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x2_S64x2_0_0 : ∀ a, (![0, 0] : Fin 2 → Nat) a + S64x2.size a ≤ S64x2.size a
  h_S64x2 : 0 < S64x2.numel
  inb_S10000x2_S10000x2_0_0 : ∀ a, (![0, 0] : Fin 2 → Nat) a + S10000x2.size a ≤ S10000x2.size a
  h_S10000x2 : 0 < S10000x2.numel
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  shapeCasts_S10000x2_S10000x2 : S10000x2.ShapeCasts S10000x2
  inb_S2_S2_0 : ∀ a, (![0] : Fin 1 → Nat) a + S2.size a ≤ S2.size a
  h_S2 : 0 < S2.numel
  shapeCasts_S2_S1x2 : S2.ShapeCasts S1x2
  broadcasts_S1x2_S10000x2 : S1x2.Broadcasts S10000x2
  inb_S2x16_S2x16_0_0 : ∀ a, (![0, 0] : Fin 2 → Nat) a + S2x16.size a ≤ S2x16.size a
  h_S2x16 : 0 < S2x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x2_S10000x2_1_0_0_1_n_n_wf : DotDims.WF S10000x64 S64x2 S10000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  dot_S10000x2_S2x16_S10000x16_1_0_0_1_n_n_wf : DotDims.WF S10000x2 S2x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x2.size a ≤ S64x2.size a
  hwx4_1 : ∀ i : grid4.Coords, EltTy.bits .f32 = 32 ∨ (Rect.block (s := S64x2) S64x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x2.size a ≤ S100000x2.size a
  hwx4_2 : ∀ i : grid4.Coords, EltTy.bits .f32 = 32 ∨ (Rect.block (s := S100000x2) S10000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x2.size a ≤ S100000x2.size a
  hwx5_0 : ∀ i : grid5.Coords, EltTy.bits .f32 = 32 ∨ (Rect.block (s := S100000x2) S10000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2.size a ≤ S2.size a
  hwx5_1 : ∀ i : grid5.Coords, EltTy.bits .f32 = 32 ∨ (Rect.block (s := S2) S2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x2.size a ≤ S100000x2.size a
  hwx5_2 : ∀ i : grid5.Coords, EltTy.bits .f32 = 32 ∨ (Rect.block (s := S100000x2) S10000x2.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x2.size a ≤ S100000x2.size a
  hwx6_0 : ∀ i : grid6.Coords, EltTy.bits .f32 = 32 ∨ (Rect.block (s := S100000x2) S10000x2.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2x16.size a ≤ S2x16.size a
  hwx6_1 : ∀ i : grid6.Coords, EltTy.bits .f32 = 32 ∨ (Rect.block (s := S2x16) S2x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x16.size a ≤ S100000x16.size a
  hwx6_2 : ∀ i : grid6.Coords, EltTy.bits .f32 = 32 ∨ (Rect.block (s := S100000x16) S10000x16.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x16.size a ≤ S100000x16.size a
  hwx7_0 : ∀ i : grid7.Coords, EltTy.bits .f32 = 32 ∨ (Rect.block (s := S100000x16) S10000x16.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S16.size a ≤ S16.size a
  hwx7_1 : ∀ i : grid7.Coords, EltTy.bits .f32 = 32 ∨ (Rect.block (s := S16) S16.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x16.size a ≤ S100000x16.size a
  hwx7_2 : ∀ i : grid7.Coords, EltTy.bits .f32 = 32 ∨ (Rect.block (s := S100000x16) S10000x16.size (cc7_transform_2 i) (hinb7_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf
def dot_S10000x2_S2x16_S10000x16_1_0_0_1_n_n : DotDims S10000x2 S2x16 S10000x16 where
  lhsContracting := [1]
  rhsContracting := [0]
  lhsNonContracting := [0]
  rhsNonContracting := [1]
  lhsBatch := []
  rhsBatch := []
  wf := dot_S10000x2_S2x16_S10000x16_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S10000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S10000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S10000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v74) S10000x2.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S2x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v75) S10000x16.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v75) S10000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S16.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v76) S10000x16.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S2x16 : Shape := ⟨2, ![2, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x2 : Shape := ⟨2, ![100000, 2]⟩
abbrev S1700000x2 : Shape := ⟨2, ![1700000, 2]⟩
abbrev S1x2 : Shape := ⟨2, ![1, 2]⟩
abbrev S100000x16 : Shape := ⟨2, ![100000, 16]⟩
abbrev S1x16 : Shape := ⟨2, ![1, 16]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S2x16, .f32⟩
  | .hbm, ⟨9, _⟩ => ⟨S16, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S100000x2, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x2, .f32⟩
  | .hbm, ⟨101, _⟩ => ⟨S1700000x1, .f32⟩
  | .hbm, ⟨102, _⟩ => ⟨S1700000x2, .f32⟩
  | .hbm, ⟨103, _⟩ => ⟨S1700000x2, .f32⟩
  | .hbm, ⟨104, _⟩ => ⟨S_, .f32⟩
  | .hbm, ⟨105, _⟩ => ⟨S100000x2, .f32⟩
  | .hbm, ⟨106, _⟩ => ⟨S1700000x1, .i32⟩
  | .hbm, ⟨107, _⟩ => ⟨S100000x2, .f32⟩
  | .hbm, ⟨108, _⟩ => ⟨S1x2, .f32⟩
  | .hbm, ⟨109, _⟩ => ⟨S100000x2, .f32⟩
  | .hbm, ⟨110, _⟩ => ⟨S100000x2, .f32⟩
  | .hbm, ⟨111, _⟩ => ⟨S100000x2, .f32⟩
  | .hbm, ⟨112, _⟩ => ⟨S100000x16, .f32⟩
  | .hbm, ⟨113, _⟩ => ⟨S1x16, .f32⟩
  | .hbm, ⟨114, _⟩ => ⟨S100000x16, .f32⟩
  | .hbm, ⟨115, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  dot_S100000x2_S2x16_S100000x16_1_0_0_1_n_n_wf : DotDims.WF S100000x2 S2x16 S100000x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf
def dot_S100000x2_S2x16_S100000x16_1_0_0_1_n_n : DotDims S100000x2 S2x16 S100000x16 where
  lhsContracting := [1]
  rhsContracting := [0]
  lhsNonContracting := [0]
  rhsNonContracting := [1]
  lhsBatch := []
  rhsBatch := []
  wf := dot_S100000x2_S2x16_S100000x16_1_0_0_1_n_n_wf

class Facts : Prop extends Facts₀ where

variable [Facts]
-- ==== Proof.KernelRun.lean ====
/-
  The idealized kernel's run with its two results read.

  The program is eight grid launches among stretches of host operations. Its frame certificate folds the
  TensorCore's buffer contents through every segment: `W0` at launch, a host stretch's operations applied in
  order, a launch's arrays at what its write-backs leave, … up to `W14` at the return. The launch theorem ends
  with every unscoped buffer of the final memory at `W14`; the frame keeps only the ten argument arrays of
  that. Here the same launch is read at the two result arrays as well: the logits `main_v76` and the
  embeddings `main_v74` end at `W14` there. What `W14` holds at those two buffers is the business of the
  other modules.
-/
import proofs.«112940_j82952998355483_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement
set_option backward.isDefEq.respectTransparency.types false in
/-- Every weakly fair execution of the idealized kernel's @main terminates, nothing faulting, with the two
    result arrays at the last boundary's contents `W14` and the ten argument arrays as launched. -/
theorem run_results : θ_run defs (onTc (τ := τ) (main (F := F))) ⟨m, fun _ => 0, ρ⟩ (fun r => ∀ c : Dev nD,
      r.2.mem ((c.tc : Thread nD τ).loc main_v76) = W14 m ρ c (Proc.devRef .tc main_v76)
      ∧ r.2.mem ((c.tc : Thread nD τ).loc main_v74) = W14 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v76 (by decide)),
       h c _ (mem_uc main_v74 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Results

end
-- ==== Proof.Linear0.lean ====
/-
  Launch 0: the first layer's dense transform, `x · W0`.

  The grid has ten points; point `t` stages rows `10000 t … 10000 t + 9999` of the node features, the whole
  weight matrix, and writes back the same rows of the result. The body's one store is a matrix product into a
  zero accumulator of the two loaded blocks after a change of float format, which is the identity on the
  extended reals. So entry `(r, q)` of the block is `∑ k, x (10000 t + r, k) · W0 (k, q)`: the row blocks are
  restrictions of ONE whole-array function, the plain product of the two arrays as the launch finds them, and
  the ten blocks tile all 100000 rows.
-/
import proofs.«112940_j82952998355483_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear0

open Cert.KernelIdeal Cert.KernelIdeal.Gen
open Idealize.ShloMosaic Idealize.ShloMosaic.TcCoe Idealize.SL.Sem
open Idealize.ShloMosaic.Pipeline (Dat)

/-- Row `i 0`, column `k` of the left factor. -/
abbrev rowK (i : S100000x64.Idx) (k : Fin 128) : S100000x128.Idx := fun a => match a with
  | ⟨0, _⟩ => ⟨(i 0).val, (i 0).isLt⟩
  | ⟨1, _⟩ => ⟨k.val, k.isLt⟩
/-- Row `k`, column `i 1` of the right factor. -/
abbrev kCol (i : S100000x64.Idx) (k : Fin 128) : S128x64.Idx := fun a => match a with
  | ⟨0, _⟩ => ⟨k.val, k.isLt⟩
  | ⟨1, _⟩ => ⟨(i 1).val, (i 1).isLt⟩

/-- The plain matrix product of a [100000, 128] array and a [128, 64] array, entry by entry. -/
def prod (a : S100000x128.Idx → EReal) (w : S128x64.Idx → EReal) : S100000x64.Idx → EReal :=
  fun i => ∑ k : Fin 128, a (rowK i k) * w (kCol i k)

/-! ## The body's product at an entry of the block -/

abbrev d := dot_S10000x128_S128x64_S10000x64_1_0_0_1_n_n

/-- The same two index maps inside one block. -/
abbrev brow (j : S10000x64.Idx) (k : Fin 128) : S10000x128.Idx := fun a => match a with
  | ⟨0, _⟩ => ⟨(j 0).val, (j 0).isLt⟩
  | ⟨1, _⟩ => ⟨k.val, k.isLt⟩
abbrev bcol (j : S10000x64.Idx) (k : Fin 128) : S128x64.Idx := fun a => match a with
  | ⟨0, _⟩ => ⟨k.val, k.isLt⟩
  | ⟨1, _⟩ => ⟨(j 1).val, (j 1).isLt⟩

theorem lhs_0 (j : S10000x64.Idx) (q : d.contr.Idx) : (d.lhsIdx j q 0).val = (j 0).val := by
  unfold DotDims.lhsIdx
  rw [dif_neg (show ¬(0 : Fin S10000x128.rank) ∈ d.lhsBatch by decide), dif_pos (show (0 : Fin S10000x128.rank) ∈ d.lhsNonContracting by decide)]
  rfl
theorem lhs_1 (j : S10000x64.Idx) (q : d.contr.Idx) : (d.lhsIdx j q 1).val = (q ⟨0, by decide⟩).val :=
  d.lhsIdx_val_of_single rfl j q
theorem rhs_0 (j : S10000x64.Idx) (q : d.contr.Idx) : (d.rhsIdx j q 0).val = (q ⟨0, by decide⟩).val :=
  d.rhsIdx_val_of_single rfl j q
theorem rhs_1 (j : S10000x64.Idx) (q : d.contr.Idx) : (d.rhsIdx j q 1).val = (j 1).val := by
  unfold DotDims.rhsIdx
  rw [dif_neg (show ¬(1 : Fin S128x64.rank) ∈ d.rhsBatch by decide), dif_pos (show (1 : Fin S128x64.rank) ∈ d.rhsNonContracting by decide)]
  rfl

/-- The stored value at entry `j` of the block: the change of float format is the identity, the accumulator is
    zero, and the contraction runs over the 128 columns of the left block. -/
theorem pay_apply (x0 : Vec Ideal S10000x128 .f32) (x1 : Vec Ideal S128x64 .f32) (j : S10000x64.Idx) :
    k0_pay1 (F := Ideal) x0 x1 j = ∑ k : Fin 128, x0 (brow j k) * x1 (bcol j k) := by
  unfold k0_pay1
  simp only [matmul]
  rw [Ideal.matmul_constant_zero_apply, ← Equiv.sum_comp (ValueIdx.contrEquiv1 d 128 rfl rfl).symm]
  refine Finset.sum_congr rfl fun k _ => ?_
  have hk := ValueIdx.contrEquiv1_symm_val d 128 rfl rfl k
  have el : d.lhsIdx j ((ValueIdx.contrEquiv1 d 128 rfl rfl).symm k) = brow j k := funext fun a => Fin.ext (by
    match a with
    | ⟨0, _⟩ => exact lhs_0 _ _
    | ⟨1, _⟩ => exact (lhs_1 _ _).trans hk)
  have er : d.rhsIdx j ((ValueIdx.contrEquiv1 d 128 rfl rfl).symm k) = bcol j k := funext fun a => Fin.ext (by
    match a with
    | ⟨0, _⟩ => exact (rhs_0 _ _).trans hk
    | ⟨1, _⟩ => exact rhs_1 _ _)
  rw [el, er] <;> rfl

/-! ## From the ten row blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left factor's row block moves with the output's, its column block
    and both of the weight's stay at 0, and the output's row block index is the point's number. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the product of the two arrays as the launch finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  funext j
  refine (pay_apply _ _ j).trans ?_
  show _ = prod (V c main_arg0) (V c main_arg2) (((cfg0.win 2).blk t).view.emb j)
  simp only [prod]
  refine Finset.sum_congr rfl fun k _ => ?_
  have h0 : iblk0 V c 0 t (brow j k) = V c main_arg0 (rowK (((cfg0.win 2).blk t).view.emb j) k) := by
    show V c main_arg0 (((cfg0.win 0).blk t).view.emb (brow j k)) = _
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : iblk0 V c 1 t (bcol j k) = V c main_arg2 (kCol (((cfg0.win 2).blk t).view.emb j) k) := by
    show V c main_arg2 (((cfg0.win 1).blk t).view.emb (bcol j k)) = _
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [h0, h1]

/-- An index of the result array is in point `t`'s block iff each coordinate is in the block's range. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row `r` lies in the block of point `r / 10000`: the ten blocks cover the array. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨e0, e1, e2, e3, e4, e5⟩ := idx_facts t
  refine ⟨t, flush0_2 t, ?_⟩
  rw [mem_blk]
  intro a
  have ht : t.val = (i 0).val / 10000 := rfl
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The result array after the launch is the product of the two arrays as the launch finds them. -/
theorem final (c : Dev nD) :
    (dat0 V c).arrAt 2 cfg0.N = prod (V c main_arg0) (V c main_arg2) :=
  (dat0 V c).arrAt_eq_of_cover 2 (prod (V c main_arg0) (V c main_arg2)) (fun t _ => flushed_eq V c t) (cover)

end Cert.KernelIdeal.Linear0

end
-- ==== Proof.Linear2.lean ====
/-
  Launch 2: the second layer's dense transform, `h · W1`.

  The grid has ten points; point `t` stages rows `10000 t … 10000 t + 9999` of the [100000, 64] input, the whole
  [64, 64] weight matrix, and writes back the same rows of the [100000, 64] result. The body casts the block to
  its own shape (the identity), changes float format (the identity on the extended reals) and stores the
  matrix product of the two blocks into a zero accumulator. So entry `(r, q)` of the block is
  `∑ k < 64, input (10000 t + r, k) · weight (k, q)`: the row blocks are restrictions of ONE whole-array function,
  the plain product of the two arrays as the launch finds them, and the ten blocks tile all 100000 rows.
-/
import proofs.«112940_j82952998355483_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear2

open Cert.KernelIdeal Cert.KernelIdeal.Gen
open Idealize.ShloMosaic Idealize.ShloMosaic.TcCoe Idealize.SL.Sem
open Idealize.ShloMosaic.Pipeline (Dat)

/-- Row `i 0`, column `k` of the left factor. -/
abbrev rowK (i : S100000x64.Idx) (k : Fin 64) : S100000x64.Idx := fun a => match a with
  | ⟨0, _⟩ => ⟨(i 0).val, (i 0).isLt⟩
  | ⟨1, _⟩ => ⟨k.val, k.isLt⟩
/-- Row `k`, column `i 1` of the right factor. -/
abbrev kCol (i : S100000x64.Idx) (k : Fin 64) : S64x64.Idx := fun a => match a with
  | ⟨0, _⟩ => ⟨k.val, k.isLt⟩
  | ⟨1, _⟩ => ⟨(i 1).val, (i 1).isLt⟩

/-- The plain matrix product of a [100000, 64] array and a [64, 64] array, entry by entry. -/
def prod (a : S100000x64.Idx → EReal) (w : S64x64.Idx → EReal) : S100000x64.Idx → EReal :=
  fun i => ∑ k : Fin 64, a (rowK i k) * w (kCol i k)

/-! ## The body's product at an entry of the block -/

abbrev d := dot_S10000x64_S64x64_S10000x64_1_0_0_1_n_n

/-- The same two index maps inside one block. -/
abbrev brow (j : S10000x64.Idx) (k : Fin 64) : S10000x64.Idx := fun a => match a with
  | ⟨0, _⟩ => ⟨(j 0).val, (j 0).isLt⟩
  | ⟨1, _⟩ => ⟨k.val, k.isLt⟩
abbrev bcol (j : S10000x64.Idx) (k : Fin 64) : S64x64.Idx := fun a => match a with
  | ⟨0, _⟩ => ⟨k.val, k.isLt⟩
  | ⟨1, _⟩ => ⟨(j 1).val, (j 1).isLt⟩

theorem lhs_0 (j : S10000x64.Idx) (q : d.contr.Idx) : (d.lhsIdx j q 0).val = (j 0).val := by
  unfold DotDims.lhsIdx
  rw [dif_neg (show ¬(0 : Fin S10000x64.rank) ∈ d.lhsBatch by decide), dif_pos (show (0 : Fin S10000x64.rank) ∈ d.lhsNonContracting by decide)]
  rfl
theorem lhs_1 (j : S10000x64.Idx) (q : d.contr.Idx) : (d.lhsIdx j q 1).val = (q ⟨0, by decide⟩).val :=
  d.lhsIdx_val_of_single rfl j q
theorem rhs_0 (j : S10000x64.Idx) (q : d.contr.Idx) : (d.rhsIdx j q 0).val = (q ⟨0, by decide⟩).val :=
  d.rhsIdx_val_of_single rfl j q
theorem rhs_1 (j : S10000x64.Idx) (q : d.contr.Idx) : (d.rhsIdx j q 1).val = (j 1).val := by
  unfold DotDims.rhsIdx
  rw [dif_neg (show ¬(1 : Fin S64x64.rank) ∈ d.rhsBatch by decide), dif_pos (show (1 : Fin S64x64.rank) ∈ d.rhsNonContracting by decide)]
  rfl

/-- The stored value at entry `j` of the block: the cast of the block to its own shape and the change of float format are the identity, the accumulator is
    zero, and the contraction runs over the 64 columns of the left block. -/
theorem pay_apply (x0 : Vec Ideal S10000x64 .f32) (x1 : Vec Ideal S64x64 .f32) (j : S10000x64.Idx) :
    k2_pay1 (F := Ideal) x0 x1 j = ∑ k : Fin 64, x0 (brow j k) * x1 (bcol j k) := by
  unfold k2_pay1
  rw [shapeCast_self]
  simp only [matmul]
  rw [Ideal.matmul_constant_zero_apply, ← Equiv.sum_comp (ValueIdx.contrEquiv1 d 64 rfl rfl).symm]
  refine Finset.sum_congr rfl fun k _ => ?_
  have hk := ValueIdx.contrEquiv1_symm_val d 64 rfl rfl k
  have el : d.lhsIdx j ((ValueIdx.contrEquiv1 d 64 rfl rfl).symm k) = brow j k := funext fun a => Fin.ext (by
    match a with
    | ⟨0, _⟩ => exact lhs_0 _ _
    | ⟨1, _⟩ => exact (lhs_1 _ _).trans hk)
  have er : d.rhsIdx j ((ValueIdx.contrEquiv1 d 64 rfl rfl).symm k) = bcol j k := funext fun a => Fin.ext (by
    match a with
    | ⟨0, _⟩ => exact (rhs_0 _ _).trans hk
    | ⟨1, _⟩ => exact rhs_1 _ _)
  rw [el, er] <;> rfl

/-! ## From the ten row blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left factor's row block moves with the output's, its column block
    and both of the weight's stay at 0, and the output's row block index is the point's number. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is block `t` of the product of the two arrays as the launch finds them. -/
theorem flushed_eq (c : Dev nD) (t : Fin cfg2.N) :
    (dat2 V c).flushed 2 t = ((cfg2.win 2).blk t).view.read (Elt Ideal) (prod (V c main_v44) (V c main_arg4)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e0, e1, e2, e3, e4, e5⟩ := idx_facts t
  funext j
  refine (pay_apply _ _ j).trans ?_
  show _ = prod (V c main_v44) (V c main_arg4) (((cfg2.win 2).blk t).view.emb j)
  simp only [prod]
  refine Finset.sum_congr rfl fun k _ => ?_
  have h0 : iblk2 V c 0 t (brow j k) = V c main_v44 (rowK (((cfg2.win 2).blk t).view.emb j) k) := by
    show V c main_v44 (((cfg2.win 0).blk t).view.emb (brow j k)) = _
    refine congrArg _ (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  have h1 : iblk2 V c 1 t (bcol j k) = V c main_arg4 (kCol (((cfg2.win 2).blk t).view.emb j) k) := by
    show V c main_arg4 (((cfg2.win 1).blk t).view.emb (bcol j k)) = _
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  rw [h0, h1]

/-- An index of the result array is in point `t`'s block iff each coordinate is in the block's range. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v45).slice (win2_2.rect t)).set ↔ _
  rw [View.set_slice_whole, Rect.mem_set_unit]
  exact Iff.rfl

/-- Row `r` lies in the block of point `r / 10000`: the ten blocks cover the array. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  let t : Fin cfg2.N := ⟨(i 0).val / 10000, by rw [show cfg2.N = 10 from N_2]; omega⟩
  obtain ⟨e0, e1, e2, e3, e4, e5⟩ := idx_facts t
  refine ⟨t, flush2_2 t, ?_⟩
  rw [mem_blk]
  intro a
  have ht : t.val = (i 0).val / 10000 := rfl
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The result array after the launch is the product of the two arrays as the launch finds them. -/
theorem final (c : Dev nD) :
    (dat2 V c).arrAt 2 cfg2.N = prod (V c main_v44) (V c main_arg4) :=
  (dat2 V c).arrAt_eq_of_cover 2 (prod (V c main_v44) (V c main_arg4)) (fun t _ => flushed_eq V c t) (cover)

end Cert.KernelIdeal.Linear2

end
-- ==== Proof.Linear4.lean ====
/-
  Launch 4: the third layer's dense transform, `h · W2`.

  The grid has ten points; point `t` stages rows `10000 t … 10000 t + 9999` of the [100000, 64] input, the whole
  [64, 2] weight matrix, and writes back the same rows of the [100000, 2] result. The body casts the block to
  its own shape (the identity), changes float format (the identity on the extended reals) and stores the
  matrix product of the two blocks into a zero accumulator. So entry `(r, q)` of the block is
  `∑ k < 64, input (10000 t + r, k) · weight (k, q)`: the row blocks are restrictions of ONE whole-array function,
  the plain product of the two arrays as the launch finds them, and the ten blocks tile all 100000 rows.
-/
import proofs.«112940_j82952998355483_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear4

open Cert.KernelIdeal Cert.KernelIdeal.Gen
open Idealize.ShloMosaic Idealize.ShloMosaic.TcCoe Idealize.SL.Sem
open Idealize.ShloMosaic.Pipeline (Dat)

/-- Row `i 0`, column `k` of the left factor. -/
abbrev rowK (i : S100000x2.Idx) (k : Fin 64) : S100000x64.Idx := fun a => match a with
  | ⟨0, _⟩ => ⟨(i 0).val, (i 0).isLt⟩
  | ⟨1, _⟩ => ⟨k.val, k.isLt⟩
/-- Row `k`, column `i 1` of the right factor. -/
abbrev kCol (i : S100000x2.Idx) (k : Fin 64) : S64x2.Idx := fun a => match a with
  | ⟨0, _⟩ => ⟨k.val, k.isLt⟩
  | ⟨1, _⟩ => ⟨(i 1).val, (i 1).isLt⟩

/-- The plain matrix product of a [100000, 64] array and a [64, 2] array, entry by entry. -/
def prod (a : S100000x64.Idx → EReal) (w : S64x2.Idx → EReal) : S100000x2.Idx → EReal :=
  fun i => ∑ k : Fin 64, a (rowK i k) * w (kCol i k)

/-! ## The body's product at an entry of the block -/

abbrev d := dot_S10000x64_S64x2_S10000x2_1_0_0_1_n_n

/-- The same two index maps inside one block. -/
abbrev brow (j : S10000x2.Idx) (k : Fin 64) : S10000x64.Idx := fun a => match a with
  | ⟨0, _⟩ => ⟨(j 0).val, (j 0).isLt⟩
  | ⟨1, _⟩ => ⟨k.val, k.isLt⟩
abbrev bcol (j : S10000x2.Idx) (k : Fin 64) : S64x2.Idx := fun a => match a with
  | ⟨0, _⟩ => ⟨k.val, k.isLt⟩
  | ⟨1, _⟩ => ⟨(j 1).val, (j 1).isLt⟩

theorem lhs_0 (j : S10000x2.Idx) (q : d.contr.Idx) : (d.lhsIdx j q 0).val = (j 0).val := by
  unfold DotDims.lhsIdx
  rw [dif_neg (show ¬(0 : Fin S10000x64.rank) ∈ d.lhsBatch by decide), dif_pos (show (0 : Fin S10000x64.rank) ∈ d.lhsNonContracting by decide)]
  rfl
theorem lhs_1 (j : S10000x2.Idx) (q : d.contr.Idx) : (d.lhsIdx j q 1).val = (q ⟨0, by decide⟩).val :=
  d.lhsIdx_val_of_single rfl j q
theorem rhs_0 (j : S10000x2.Idx) (q : d.contr.Idx) : (d.rhsIdx j q 0).val = (q ⟨0, by decide⟩).val :=
  d.rhsIdx_val_of_single rfl j q
theorem rhs_1 (j : S10000x2.Idx) (q : d.contr.Idx) : (d.rhsIdx j q 1).val = (j 1).val := by
  unfold DotDims.rhsIdx
  rw [dif_neg (show ¬(1 : Fin S64x2.rank) ∈ d.rhsBatch by decide), dif_pos (show (1 : Fin S64x2.rank) ∈ d.rhsNonContracting by decide)]
  rfl

/-- The stored value at entry `j` of the block: the cast of the block to its own shape and the change of float format are the identity, the accumulator is
    zero, and the contraction runs over the 64 columns of the left block. -/
theorem pay_apply (x0 : Vec Ideal S10000x64 .f32) (x1 : Vec Ideal S64x2 .f32) (j : S10000x2.Idx) :
    k4_pay1 (F := Ideal) x0 x1 j = ∑ k : Fin 64, x0 (brow j k) * x1 (bcol j k) := by
  unfold k4_pay1
  rw [shapeCast_self]
  simp only [matmul]
  rw [Ideal.matmul_constant_zero_apply, ← Equiv.sum_comp (ValueIdx.contrEquiv1 d 64 rfl rfl).symm]
  refine Finset.sum_congr rfl fun k _ => ?_
  have hk := ValueIdx.contrEquiv1_symm_val d 64 rfl rfl k
  have el : d.lhsIdx j ((ValueIdx.contrEquiv1 d 64 rfl rfl).symm k) = brow j k := funext fun a => Fin.ext (by
    match a with
    | ⟨0, _⟩ => exact lhs_0 _ _
    | ⟨1, _⟩ => exact (lhs_1 _ _).trans hk)
  have er : d.rhsIdx j ((ValueIdx.contrEquiv1 d 64 rfl rfl).symm k) = bcol j k := funext fun a => Fin.ext (by
    match a with
    | ⟨0, _⟩ => exact (rhs_0 _ _).trans hk
    | ⟨1, _⟩ => exact rhs_1 _ _)
  rw [el, er] <;> rfl

/-! ## From the ten row blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left factor's row block moves with the output's, its column block
    and both of the weight's stay at 0, and the output's row block index is the point's number. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point `t` writes back is block `t` of the product of the two arrays as the launch finds them. -/
theorem flushed_eq (c : Dev nD) (t : Fin cfg4.N) :
    (dat4 V c).flushed 2 t = ((cfg4.win 2).blk t).view.read (Elt Ideal) (prod (V c main_v59) (V c main_arg6)) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x2) hz]
  obtain ⟨e0, e1, e2, e3, e4, e5⟩ := idx_facts t
  funext j
  refine (pay_apply _ _ j).trans ?_
  show _ = prod (V c main_v59) (V c main_arg6) (((cfg4.win 2).blk t).view.emb j)
  simp only [prod]
  refine Finset.sum_congr rfl fun k _ => ?_
  have h0 : iblk4 V c 0 t (brow j k) = V c main_v59 (rowK (((cfg4.win 2).blk t).view.emb j) k) := by
    show V c main_v59 (((cfg4.win 0).blk t).view.emb (brow j k)) = _
    refine congrArg _ (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * k.val = k.val; omega
  have h1 : iblk4 V c 1 t (bcol j k) = V c main_arg6 (kCol (((cfg4.win 2).blk t).view.emb j) k) := by
    show V c main_arg6 (((cfg4.win 1).blk t).view.emb (bcol j k)) = _
    refine congrArg _ (funext fun a => Fin.ext ?_)
    match a with
    | ⟨0, _⟩ => show win4_1.index t (0 : Fin 2) * 64 + 1 * k.val = k.val; omega
    | ⟨1, _⟩ => show win4_1.index t (1 : Fin 2) * 2 + 1 * (j 1).val = win4_2.index t (1 : Fin 2) * 2 + 1 * (j 1).val; omega
  rw [h0, h1]

/-- An index of the result array is in point `t`'s block iff each coordinate is in the block's range. -/
theorem mem_blk (t : Fin cfg4.N) (i : S100000x2.Idx) :
    i ∈ ((cfg4.win 2).blk t).view.set ↔ ∀ a : Fin 2, win4_2.index t a * S10000x2.size a ≤ (i a).val ∧ (i a).val < win4_2.index t a * S10000x2.size a + S10000x2.size a := by
  show i ∈ ((View.whole main_v60).slice (win4_2.rect t)).set ↔ _
  rw [View.set_slice_whole, Rect.mem_set_unit]
  exact Iff.rfl

/-- Row `r` lies in the block of point `r / 10000`: the ten blocks cover the array. -/
theorem cover (i : S100000x2.Idx) : ∃ t : Fin cfg4.N, (cfg4.win 2).flush t = true ∧ i ∈ ((cfg4.win 2).blk t).view.set := by
  have hi0 : (i 0).val < 100000 := (i 0).isLt
  have hi1 : (i 1).val < 2 := (i 1).isLt
  let t : Fin cfg4.N := ⟨(i 0).val / 10000, by rw [show cfg4.N = 10 from N_4]; omega⟩
  obtain ⟨e0, e1, e2, e3, e4, e5⟩ := idx_facts t
  refine ⟨t, flush4_2 t, ?_⟩
  rw [mem_blk]
  intro a
  have ht : t.val = (i 0).val / 10000 := rfl
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 2 ≤ (i 1).val ∧ (i 1).val < win4_2.index t (1 : Fin 2) * 2 + 2; omega

/-- The result array after the launch is the product of the two arrays as the launch finds them. -/
theorem final (c : Dev nD) :
    (dat4 V c).arrAt 2 cfg4.N = prod (V c main_v59) (V c main_arg6) :=
  (dat4 V c).arrAt_eq_of_cover 2 (prod (V c main_v59) (V c main_arg6)) (fun t _ => flushed_eq V c t) (cover)

end Cert.KernelIdeal.Linear4

end
-- ==== Proof.Linear6.lean ====
/-
  Launch 6: the classifier's dense transform, `embeddings · Wc`.

  The grid has ten points; point `t` stages rows `10000 t … 10000 t + 9999` of the [100000, 2] input, the whole
  [2, 16] weight matrix, and writes back the same rows of the [100000, 16] result. The body casts the block to
  its own shape (the identity), changes float format (the identity on the extended reals) and stores the
  matrix product of the two blocks into a zero accumulator. So entry `(r, q)` of the block is
  `∑ k < 2, input (10000 t + r, k) · weight (k, q)`: the row blocks are restrictions of ONE whole-array function,
  the plain product of the two arrays as the launch finds them, and the ten blocks tile all 100000 rows.
-/
import proofs.«112940_j82952998355483_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear6

open Cert.KernelIdeal Cert.KernelIdeal.Gen
open Idealize.ShloMosaic Idealize.ShloMosaic.TcCoe Idealize.SL.Sem
open Idealize.ShloMosaic.Pipeline (Dat)

/-- Row `i 0`, column `k` of the left factor. -/
abbrev rowK (i : S100000x16.Idx) (k : Fin 2) : S100000x2.Idx := fun a => match a with
  | ⟨0, _⟩ => ⟨(i 0).val, (i 0).isLt⟩
  | ⟨1, _⟩ => ⟨k.val, k.isLt⟩
/-- Row `k`, column `i 1` of the right factor. -/
abbrev kCol (i : S100000x16.Idx) (k : Fin 2) : S2x16.Idx := fun a => match a with
  | ⟨0, _⟩ => ⟨k.val, k.isLt⟩
  | ⟨1, _⟩ => ⟨(i 1).val, (i 1).isLt⟩

/-- The plain matrix product of a [100000, 2] array and a [2, 16] array, entry by entry. -/
def prod (a : S100000x2.Idx → EReal) (w : S2x16.Idx → EReal) : S100000x16.Idx → EReal :=
  fun i => ∑ k : Fin 2, a (rowK i k) * w (kCol i k)

/-! ## The body's product at an entry of the block -/

abbrev d := dot_S10000x2_S2x16_S10000x16_1_0_0_1_n_n

/-- The same two index maps inside one block. -/
abbrev brow (j : S10000x16.Idx) (k : Fin 2) : S10000x2.Idx := fun a => match a with
  | ⟨0, _⟩ => ⟨(j 0).val, (j 0).isLt⟩
  | ⟨1, _⟩ => ⟨k.val, k.isLt⟩
abbrev bcol (j : S10000x16.Idx) (k : Fin 2) : S2x16.Idx := fun a => match a with
  | ⟨0, _⟩ => ⟨k.val, k.isLt⟩
  | ⟨1, _⟩ => ⟨(j 1).val, (j 1).isLt⟩

theorem lhs_0 (j : S10000x16.Idx) (q : d.contr.Idx) : (d.lhsIdx j q 0).val = (j 0).val := by
  unfold DotDims.lhsIdx
  rw [dif_neg (show ¬(0 : Fin S10000x2.rank) ∈ d.lhsBatch by decide), dif_pos (show (0 : Fin S10000x2.rank) ∈ d.lhsNonContracting by decide)]
  rfl
theorem lhs_1 (j : S10000x16.Idx) (q : d.contr.Idx) : (d.lhsIdx j q 1).val = (q ⟨0, by decide⟩).val :=
  d.lhsIdx_val_of_single rfl j q
theorem rhs_0 (j : S10000x16.Idx) (q : d.contr.Idx) : (d.rhsIdx j q 0).val = (q ⟨0, by decide⟩).val :=
  d.rhsIdx_val_of_single rfl j q
theorem rhs_1 (j : S10000x16.Idx) (q : d.contr.Idx) : (d.rhsIdx j q 1).val = (j 1).val := by
  unfold DotDims.rhsIdx
  rw [dif_neg (show ¬(1 : Fin S2x16.rank) ∈ d.rhsBatch by decide), dif_pos (show (1 : Fin S2x16.rank) ∈ d.rhsNonContracting by decide)]
  rfl

/-- The stored value at entry `j` of the block: the cast of the block to its own shape and the change of float format are the identity, the accumulator is
    zero, and the contraction runs over the 2 columns of the left block. -/
theorem pay_apply (x0 : Vec Ideal S10000x2 .f32) (x1 : Vec Ideal S2x16 .f32) (j : S10000x16.Idx) :
    k6_pay1 (F := Ideal) x0 x1 j = ∑ k : Fin 2, x0 (brow j k) * x1 (bcol j k) := by
  unfold k6_pay1
  rw [shapeCast_self]
  simp only [matmul]
  rw [Ideal.matmul_constant_zero_apply, ← Equiv.sum_comp (ValueIdx.contrEquiv1 d 2 rfl rfl).symm]
  refine Finset.sum_congr rfl fun k _ => ?_
  have hk := ValueIdx.contrEquiv1_symm_val d 2 rfl rfl k
  have el : d.lhsIdx j ((ValueIdx.contrEquiv1 d 2 rfl rfl).symm k) = brow j k := funext fun a => Fin.ext (by
    match a with
    | ⟨0, _⟩ => exact lhs_0 _ _
    | ⟨1, _⟩ => exact (lhs_1 _ _).trans hk)
  have er : d.rhsIdx j ((ValueIdx.contrEquiv1 d 2 rfl rfl).symm k) = bcol j k := funext fun a => Fin.ext (by
    match a with
    | ⟨0, _⟩ => exact (rhs_0 _ _).trans hk
    | ⟨1, _⟩ => exact rhs_1 _ _)
  rw [el, er] <;> rfl

/-! ## From the ten row blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left factor's row block moves with the output's, its column block
    and both of the weight's stay at 0, and the output's row block index is the point's number. -/
theorem idx_facts : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- What point `t` writes back is block `t` of the product of the two arrays as the launch finds them. -/
theorem flushed_eq (c : Dev nD) (t : Fin cfg6.N) :
    (dat6 V c).flushed 2 t = ((cfg6.win 2).blk t).view.read (Elt Ideal) (prod (V c main_v74) (V c main_arg8)) := by
  show (cfg6.win 2).cut (grid6.coords t) ((dat6 V c).after 2 t) = _
  rw [after6_2]
  unfold out6_2
  rw [View.canon_unit_zero hz]
  simp only [View.ld_unit_zero (S := S10000x2) hz, View.ld_unit_zero (S := S2x16) hz]
  obtain ⟨e0, e1, e2, e3, e4, e5⟩ := idx_facts t
  funext j
  refine (pay_apply _ _ j).trans ?_
  show _ = prod (V c main_v74) (V c main_arg8) (((cfg6.win 2).blk t).view.emb j)
  simp only [prod]
  refine Finset.sum_congr rfl fun k _ => ?_
  have h0 : iblk6 V c 0 t (brow j k) = V c main_v74 (rowK (((cfg6.win 2).blk t).view.emb j) k) := by
    show V c main_v74 (((cfg6.win 0).blk t).view.emb (brow j k)) = _
    refine congrArg _ (funext fun a => Fin.ext ?_)
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 2 + 1 * k.val = k.val; omega
  have h1 : iblk6 V c 1 t (bcol j k) = V c main_arg8 (kCol (((cfg6.win 2).blk t).view.emb j) k) := by
    show V c main_arg8 (((cfg6.win 1).blk t).view.emb (bcol j k)) = _
    refine congrArg _ (funext fun a => Fin.ext ?_)
    match a with
    | ⟨0, _⟩ => show win6_1.index t (0 : Fin 2) * 2 + 1 * k.val = k.val; omega
    | ⟨1, _⟩ => show win6_1.index t (1 : Fin 2) * 16 + 1 * (j 1).val = win6_2.index t (1 : Fin 2) * 16 + 1 * (j 1).val; omega
  rw [h0, h1]

/-- An index of the result array is in point `t`'s block iff each coordinate is in the block's range. -/
theorem mem_blk (t : Fin cfg6.N) (i : S100000x16.Idx) :
    i ∈ ((cfg6.win 2).blk t).view.set ↔ ∀ a : Fin 2, win6_2.index t a * S10000x16.size a ≤ (i a).val ∧ (i a).val < win6_2.index t a * S10000x16.size a + S10000x16.size a := by
  show i ∈ ((View.whole main_v75).slice (win6_2.rect t)).set ↔ _
  rw [View.set_slice_whole, Rect.mem_set_unit]
  exact Iff.rfl

/-- Row `r` lies in the block of point `r / 10000`: the ten blocks cover the array. -/
theorem cover (i : S100000x16.Idx) : ∃ t : Fin cfg6.N, (cfg6.win 2).flush t = true ∧ i ∈ ((cfg6.win 2).blk t).view.set := by
  have hi0 : (i 0).val < 100000 := (i 0).isLt
  have hi1 : (i 1).val < 16 := (i 1).isLt
  let t : Fin cfg6.N := ⟨(i 0).val / 10000, by rw [show cfg6.N = 10 from N_6]; omega⟩
  obtain ⟨e0, e1, e2, e3, e4, e5⟩ := idx_facts t
  refine ⟨t, flush6_2 t, ?_⟩
  rw [mem_blk]
  intro a
  have ht : t.val = (i 0).val / 10000 := rfl
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 16 ≤ (i 1).val ∧ (i 1).val < win6_2.index t (1 : Fin 2) * 16 + 16; omega

/-- The result array after the launch is the product of the two arrays as the launch finds them. -/
theorem final (c : Dev nD) :
    (dat6 V c).arrAt 2 cfg6.N = prod (V c main_v74) (V c main_arg8) :=
  (dat6 V c).arrAt_eq_of_cover 2 (prod (V c main_v74) (V c main_arg8)) (fun t _ => flushed_eq V c t) (cover)

end Cert.KernelIdeal.Linear6

end
-- ==== Proof.Bias1.lean ====
/-
  Launch 1: the first layer's bias, `agg + b0` (no activation on this layer).

  Point `t` of the ten stages rows `10000 t … 10000 t + 9999` of the aggregated features and the whole bias
  vector, and writes back the same rows. The body adds to the block the bias laid out as one row and repeated
  down the 10000 rows: entry `(r, q)` of the block is `agg (10000 t + r, q) + b0 q`. So every block is the
  restriction of ONE whole-array function, "add the bias to every row", and the ten blocks tile the array.
-/
import proofs.«112940_j82952998355483_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Bias1

open Cert.KernelIdeal Cert.KernelIdeal.Gen
open Idealize.ShloMosaic Idealize.ShloMosaic.TcCoe Idealize.ShloMosaic.ValueIdx Idealize.SL.Sem
open Idealize.ShloMosaic.Pipeline (Dat)

/-- The bias's entry for column `i 1`. -/
abbrev colOf (i : S100000x64.Idx) : S64.Idx := fun a => match a with
  | ⟨0, _⟩ => ⟨(i 1).val, (i 1).isLt⟩

/-- A [64] vector added to every row of a [100000, 64] array. -/
def addRow (a : S100000x64.Idx → EReal) (b : S64.Idx → EReal) : S100000x64.Idx → EReal :=
  fun i => a i + b (colOf i)

/-! ## The body's sum at an entry of the block -/

/-- The stored value at row `p`, column `q` of the block: the block's entry plus the bias's entry `q` (the cast of
    the block to its own shape is the identity; the bias becomes a [1, 64] row, which is repeated over the rows). -/
theorem pay_apply (x0 : Vec Ideal S10000x64 .f32) (x1 : Vec Ideal S64 .f32) (p : Fin 10000) (q : Fin 64) :
    k1_pay1 (F := Ideal) x0 x1 (ix2 p q) = x0 (ix2 p q) + x1 (ix1 q) := by
  unfold k1_pay1
  rw [addf_apply, shapeCast_self, broadcastTo_1b_ab_apply, shapeCast_a_1a_apply]

/-! ## From the ten row blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the input's row block moves with the output's, the bias's one block
    stays at 0, and the output's row block index is the point's number. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 1) = 0
    ∧ win1_2.index t (0 : Fin 2) = t.val
    ∧ win1_2.index t (1 : Fin 2) = 0 :=
  (by decide +kernel : ∀ t : Fin grid1.N, _)

/-- What point `t` writes back is block `t` of "the bias added to every row" of the two arrays as the launch
    finds them. -/
theorem flushed_eq (c : Dev nD) (t : Fin cfg1.N) :
    (dat1 V c).flushed 2 t = ((cfg1.win 2).blk t).view.read (Elt Ideal) (addRow (V c main_v43) (V c main_arg3)) := by
  show (cfg1.win 2).cut (grid1.coords t) ((dat1 V c).after 2 t) = _
  rw [after1_2]
  unfold out1_2
  rw [View.canon_unit_zero hz2]
  simp only [View.ld_unit_zero (S := S10000x64) hz2, View.ld_unit_zero (S := S64) hz1]
  obtain ⟨e0, e1, e2, e3, e4⟩ := idx_facts t
  funext j
  obtain ⟨p, q, rfl⟩ : ∃ (p : Fin 10000) (q : Fin 64), j = ix2 p q := ⟨j 0, j 1, eq_ix2 j⟩
  refine (pay_apply _ _ p q).trans ?_
  have h0 : iblk1 V c 0 t (ix2 p q) = V c main_v43 (((cfg1.win 2).blk t).view.emb (ix2 p q)) := by
    show V c main_v43 (((cfg1.win 0).blk t).view.emb (ix2 p q)) = _
    refine congrArg _ (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : iblk1 V c 1 t (ix1 q) = V c main_arg3 (colOf (((cfg1.win 2).blk t).view.emb (ix2 p q))) := by
    show V c main_arg3 (((cfg1.win 1).blk t).view.emb (ix1 q)) = _
    refine congrArg _ (funext fun a => Fin.ext ?_)
    match a with
    | ⟨0, _⟩ => show win1_1.index t (0 : Fin 1) * 64 + 1 * q.val = win1_2.index t (1 : Fin 2) * 64 + 1 * q.val; omega
  rw [h0, h1]
  rfl

/-- An index of the result array is in point `t`'s block iff each coordinate is in the block's range. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v44).slice (win1_2.rect t)).set ↔ _
  rw [View.set_slice_whole, Rect.mem_set_unit]
  exact Iff.rfl

/-- Row `r` lies in the block of point `r / 10000`: the ten blocks cover the array. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  let t : Fin cfg1.N := ⟨(i 0).val / 10000, by rw [show cfg1.N = 10 from N_1]; omega⟩
  obtain ⟨e0, e1, e2, e3, e4⟩ := idx_facts t
  refine ⟨t, flush1_2 t, ?_⟩
  rw [mem_blk]
  intro a
  have ht : t.val = (i 0).val / 10000 := rfl
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The result array after the launch is "the bias added to every row" of the two arrays as the launch finds them. -/
theorem final (c : Dev nD) :
    (dat1 V c).arrAt 2 cfg1.N = addRow (V c main_v43) (V c main_arg3) :=
  (dat1 V c).arrAt_eq_of_cover 2 (addRow (V c main_v43) (V c main_arg3)) (fun t _ => flushed_eq V c t) (cover)

end Cert.KernelIdeal.Bias1

end
-- ==== Proof.Bias3.lean ====
/-
  Launch 3: the second layer's bias and activation, `tanh (agg + b1)`.

  Point `t` of the ten stages rows `10000 t … 10000 t + 9999` of the [100000, 64] aggregated features and the
  whole [64] bias vector, and writes back the same rows. The body adds to the block the bias laid out as one row
  and repeated down the 10000 rows, then takes the hyperbolic tangent of every entry: entry `(r, q)` of the block is
  `tanh (agg (10000 t + r, q) + b q)`. So every block is the restriction of ONE whole-array function, and the ten
  blocks tile the array.
-/
import proofs.«112940_j82952998355483_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Bias3

open Cert.KernelIdeal Cert.KernelIdeal.Gen
open Idealize.ShloMosaic Idealize.ShloMosaic.TcCoe Idealize.ShloMosaic.ValueIdx Idealize.SL.Sem
open Idealize.ShloMosaic.Pipeline (Dat)

/-- The bias's entry for column `i 1`. -/
abbrev colOf (i : S100000x64.Idx) : S64.Idx := fun a => match a with
  | ⟨0, _⟩ => ⟨(i 1).val, (i 1).isLt⟩

/-- The hyperbolic tangent, entry by entry, of a [64] vector added to every row of a [100000, 64] array. -/
def tanhAddRow (a : S100000x64.Idx → EReal) (b : S64.Idx → EReal) : S100000x64.Idx → EReal :=
  fun i => Ideal.tanh (a i + b (colOf i))

/-! ## The body's sum at an entry of the block -/

/-- The stored value at row `p`, column `q` of the block: the hyperbolic tangent of the block's entry plus the bias's entry `q` (the cast of
    the block to its own shape is the identity; the bias becomes a [1, 64] row, which is repeated over the rows). -/
theorem pay_apply (x0 : Vec Ideal S10000x64 .f32) (x1 : Vec Ideal S64 .f32) (p : Fin 10000) (q : Fin 64) :
    k3_pay1 (F := Ideal) x0 x1 (ix2 p q) = Ideal.tanh (x0 (ix2 p q) + x1 (ix1 q)) := by
  unfold k3_pay1
  refine congrArg Ideal.tanh ?_
  rw [addf_apply, shapeCast_self, broadcastTo_1b_ab_apply, shapeCast_a_1a_apply]

/-! ## From the ten row blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the input's row block moves with the output's, the bias's one block
    stays at 0, and the output's row block index is the point's number. -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 1) = 0
    ∧ win3_2.index t (0 : Fin 2) = t.val
    ∧ win3_2.index t (1 : Fin 2) = 0 :=
  (by decide +kernel : ∀ t : Fin grid3.N, _)

/-- What point `t` writes back is block `t` of "the bias added to every row" of the two arrays as the launch
    finds them. -/
theorem flushed_eq (c : Dev nD) (t : Fin cfg3.N) :
    (dat3 V c).flushed 2 t = ((cfg3.win 2).blk t).view.read (Elt Ideal) (tanhAddRow (V c main_v58) (V c main_arg5)) := by
  show (cfg3.win 2).cut (grid3.coords t) ((dat3 V c).after 2 t) = _
  rw [after3_2]
  unfold out3_2
  rw [View.canon_unit_zero hz2]
  simp only [View.ld_unit_zero (S := S10000x64) hz2, View.ld_unit_zero (S := S64) hz1]
  obtain ⟨e0, e1, e2, e3, e4⟩ := idx_facts t
  funext j
  obtain ⟨p, q, rfl⟩ : ∃ (p : Fin 10000) (q : Fin 64), j = ix2 p q := ⟨j 0, j 1, eq_ix2 j⟩
  refine (pay_apply _ _ p q).trans ?_
  have h0 : iblk3 V c 0 t (ix2 p q) = V c main_v58 (((cfg3.win 2).blk t).view.emb (ix2 p q)) := by
    show V c main_v58 (((cfg3.win 0).blk t).view.emb (ix2 p q)) = _
    refine congrArg _ (funext fun a => Fin.ext ?_)
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  have h1 : iblk3 V c 1 t (ix1 q) = V c main_arg5 (colOf (((cfg3.win 2).blk t).view.emb (ix2 p q))) := by
    show V c main_arg5 (((cfg3.win 1).blk t).view.emb (ix1 q)) = _
    refine congrArg _ (funext fun a => Fin.ext ?_)
    match a with
    | ⟨0, _⟩ => show win3_1.index t (0 : Fin 1) * 64 + 1 * q.val = win3_2.index t (1 : Fin 2) * 64 + 1 * q.val; omega
  rw [h0, h1]
  rfl

/-- An index of the result array is in point `t`'s block iff each coordinate is in the block's range. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v59).slice (win3_2.rect t)).set ↔ _
  rw [View.set_slice_whole, Rect.mem_set_unit]
  exact Iff.rfl

/-- Row `r` lies in the block of point `r / 10000`: the ten blocks cover the array. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 10000, by rw [show cfg3.N = 10 from N_3]; omega⟩
  obtain ⟨e0, e1, e2, e3, e4⟩ := idx_facts t
  refine ⟨t, flush3_2 t, ?_⟩
  rw [mem_blk]
  intro a
  have ht : t.val = (i 0).val / 10000 := rfl
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The result array after the launch is "the bias added to every row" of the two arrays as the launch finds them. -/
theorem final (c : Dev nD) :
    (dat3 V c).arrAt 2 cfg3.N = tanhAddRow (V c main_v58) (V c main_arg5) :=
  (dat3 V c).arrAt_eq_of_cover 2 (tanhAddRow (V c main_v58) (V c main_arg5)) (fun t _ => flushed_eq V c t) (cover)

end Cert.KernelIdeal.Bias3

end
-- ==== Proof.Bias5.lean ====
/-
  Launch 5: the third layer's bias and activation, `tanh (agg + b2)`: the embeddings.

  Point `t` of the ten stages rows `10000 t … 10000 t + 9999` of the [100000, 2] aggregated features and the
  whole [2] bias vector, and writes back the same rows. The body adds to the block the bias laid out as one row
  and repeated down the 10000 rows, then takes the hyperbolic tangent of every entry: entry `(r, q)` of the block is
  `tanh (agg (10000 t + r, q) + b q)`. So every block is the restriction of ONE whole-array function, and the ten
  blocks tile the array.
-/
import proofs.«112940_j82952998355483_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Bias5

open Cert.KernelIdeal Cert.KernelIdeal.Gen
open Idealize.ShloMosaic Idealize.ShloMosaic.TcCoe Idealize.ShloMosaic.ValueIdx Idealize.SL.Sem
open Idealize.ShloMosaic.Pipeline (Dat)

/-- The bias's entry for column `i 1`. -/
abbrev colOf (i : S100000x2.Idx) : S2.Idx := fun a => match a with
  | ⟨0, _⟩ => ⟨(i 1).val, (i 1).isLt⟩

/-- The hyperbolic tangent, entry by entry, of a [2] vector added to every row of a [100000, 2] array. -/
def tanhAddRow (a : S100000x2.Idx → EReal) (b : S2.Idx → EReal) : S100000x2.Idx → EReal :=
  fun i => Ideal.tanh (a i + b (colOf i))

/-! ## The body's sum at an entry of the block -/

/-- The stored value at row `p`, column `q` of the block: the hyperbolic tangent of the block's entry plus the bias's entry `q` (the cast of
    the block to its own shape is the identity; the bias becomes a [1, 2] row, which is repeated over the rows). -/
theorem pay_apply (x0 : Vec Ideal S10000x2 .f32) (x1 : Vec Ideal S2 .f32) (p : Fin 10000) (q : Fin 2) :
    k5_pay1 (F := Ideal) x0 x1 (ix2 p q) = Ideal.tanh (x0 (ix2 p q) + x1 (ix1 q)) := by
  unfold k5_pay1
  refine congrArg Ideal.tanh ?_
  rw [addf_apply, shapeCast_self, broadcastTo_1b_ab_apply, shapeCast_a_1a_apply]

/-! ## From the ten row blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the input's row block moves with the output's, the bias's one block
    stays at 0, and the output's row block index is the point's number. -/
theorem idx_facts : ∀ t : Fin cfg5.N, win5_0.index t (0 : Fin 2) = win5_2.index t (0 : Fin 2)
    ∧ win5_0.index t (1 : Fin 2) = win5_2.index t (1 : Fin 2)
    ∧ win5_1.index t (0 : Fin 1) = 0
    ∧ win5_2.index t (0 : Fin 2) = t.val
    ∧ win5_2.index t (1 : Fin 2) = 0 :=
  (by decide +kernel : ∀ t : Fin grid5.N, _)

/-- What point `t` writes back is block `t` of "the bias added to every row" of the two arrays as the launch
    finds them. -/
theorem flushed_eq (c : Dev nD) (t : Fin cfg5.N) :
    (dat5 V c).flushed 2 t = ((cfg5.win 2).blk t).view.read (Elt Ideal) (tanhAddRow (V c main_v73) (V c main_arg7)) := by
  show (cfg5.win 2).cut (grid5.coords t) ((dat5 V c).after 2 t) = _
  rw [after5_2]
  unfold out5_2
  rw [View.canon_unit_zero hz2]
  simp only [View.ld_unit_zero (S := S10000x2) hz2, View.ld_unit_zero (S := S2) hz1]
  obtain ⟨e0, e1, e2, e3, e4⟩ := idx_facts t
  funext j
  obtain ⟨p, q, rfl⟩ : ∃ (p : Fin 10000) (q : Fin 2), j = ix2 p q := ⟨j 0, j 1, eq_ix2 j⟩
  refine (pay_apply _ _ p q).trans ?_
  have h0 : iblk5 V c 0 t (ix2 p q) = V c main_v73 (((cfg5.win 2).blk t).view.emb (ix2 p q)) := by
    show V c main_v73 (((cfg5.win 0).blk t).view.emb (ix2 p q)) = _
    refine congrArg _ (funext fun a => Fin.ext ?_)
    match a with
    | ⟨0, _⟩ => show win5_0.index t (0 : Fin 2) * 10000 + 1 * p.val = win5_2.index t (0 : Fin 2) * 10000 + 1 * p.val; omega
    | ⟨1, _⟩ => show win5_0.index t (1 : Fin 2) * 2 + 1 * q.val = win5_2.index t (1 : Fin 2) * 2 + 1 * q.val; omega
  have h1 : iblk5 V c 1 t (ix1 q) = V c main_arg7 (colOf (((cfg5.win 2).blk t).view.emb (ix2 p q))) := by
    show V c main_arg7 (((cfg5.win 1).blk t).view.emb (ix1 q)) = _
    refine congrArg _ (funext fun a => Fin.ext ?_)
    match a with
    | ⟨0, _⟩ => show win5_1.index t (0 : Fin 1) * 2 + 1 * q.val = win5_2.index t (1 : Fin 2) * 2 + 1 * q.val; omega
  rw [h0, h1]
  rfl

/-- An index of the result array is in point `t`'s block iff each coordinate is in the block's range. -/
theorem mem_blk (t : Fin cfg5.N) (i : S100000x2.Idx) :
    i ∈ ((cfg5.win 2).blk t).view.set ↔ ∀ a : Fin 2, win5_2.index t a * S10000x2.size a ≤ (i a).val ∧ (i a).val < win5_2.index t a * S10000x2.size a + S10000x2.size a := by
  show i ∈ ((View.whole main_v74).slice (win5_2.rect t)).set ↔ _
  rw [View.set_slice_whole, Rect.mem_set_unit]
  exact Iff.rfl

/-- Row `r` lies in the block of point `r / 10000`: the ten blocks cover the array. -/
theorem cover (i : S100000x2.Idx) : ∃ t : Fin cfg5.N, (cfg5.win 2).flush t = true ∧ i ∈ ((cfg5.win 2).blk t).view.set := by
  have hi0 : (i 0).val < 100000 := (i 0).isLt
  have hi1 : (i 1).val < 2 := (i 1).isLt
  let t : Fin cfg5.N := ⟨(i 0).val / 10000, by rw [show cfg5.N = 10 from N_5]; omega⟩
  obtain ⟨e0, e1, e2, e3, e4⟩ := idx_facts t
  refine ⟨t, flush5_2 t, ?_⟩
  rw [mem_blk]
  intro a
  have ht : t.val = (i 0).val / 10000 := rfl
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 2 ≤ (i 1).val ∧ (i 1).val < win5_2.index t (1 : Fin 2) * 2 + 2; omega

/-- The result array after the launch is "the bias added to every row" of the two arrays as the launch finds them. -/
theorem final (c : Dev nD) :
    (dat5 V c).arrAt 2 cfg5.N = tanhAddRow (V c main_v73) (V c main_arg7) :=
  (dat5 V c).arrAt_eq_of_cover 2 (tanhAddRow (V c main_v73) (V c main_arg7)) (fun t _ => flushed_eq V c t) (cover)

end Cert.KernelIdeal.Bias5

end
-- ==== Proof.Bias7.lean ====
/-
  Launch 7: the classifier's bias, `embeddings · Wc + bc`: the logits.

  Point `t` of the ten stages rows `10000 t … 10000 t + 9999` of the [100000, 16] aggregated features and the
  whole [16] bias vector, and writes back the same rows. The body adds to the block the bias laid out as one row
  and repeated down the 10000 rows: entry `(r, q)` of the block is
  `agg (10000 t + r, q) + b q`. So every block is the restriction of ONE whole-array function, and the ten
  blocks tile the array.
-/
import proofs.«112940_j82952998355483_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Bias7

open Cert.KernelIdeal Cert.KernelIdeal.Gen
open Idealize.ShloMosaic Idealize.ShloMosaic.TcCoe Idealize.ShloMosaic.ValueIdx Idealize.SL.Sem
open Idealize.ShloMosaic.Pipeline (Dat)

/-- The bias's entry for column `i 1`. -/
abbrev colOf (i : S100000x16.Idx) : S16.Idx := fun a => match a with
  | ⟨0, _⟩ => ⟨(i 1).val, (i 1).isLt⟩

/-- A [16] vector added to every row of a [100000, 16] array. -/
def addRow (a : S100000x16.Idx → EReal) (b : S16.Idx → EReal) : S100000x16.Idx → EReal :=
  fun i => a i + b (colOf i)

/-! ## The body's sum at an entry of the block -/

/-- The stored value at row `p`, column `q` of the block: the block's entry plus the bias's entry `q` (the cast of
    the block to its own shape is the identity; the bias becomes a [1, 16] row, which is repeated over the rows). -/
theorem pay_apply (x0 : Vec Ideal S10000x16 .f32) (x1 : Vec Ideal S16 .f32) (p : Fin 10000) (q : Fin 16) :
    k7_pay1 (F := Ideal) x0 x1 (ix2 p q) = x0 (ix2 p q) + x1 (ix1 q) := by
  unfold k7_pay1
  rw [addf_apply, shapeCast_self, broadcastTo_1b_ab_apply, shapeCast_a_1a_apply]

/-! ## From the ten row blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the input's row block moves with the output's, the bias's one block
    stays at 0, and the output's row block index is the point's number. -/
theorem idx_facts : ∀ t : Fin cfg7.N, win7_0.index t (0 : Fin 2) = win7_2.index t (0 : Fin 2)
    ∧ win7_0.index t (1 : Fin 2) = win7_2.index t (1 : Fin 2)
    ∧ win7_1.index t (0 : Fin 1) = 0
    ∧ win7_2.index t (0 : Fin 2) = t.val
    ∧ win7_2.index t (1 : Fin 2) = 0 :=
  (by decide +kernel : ∀ t : Fin grid7.N, _)

/-- What point `t` writes back is block `t` of "the bias added to every row" of the two arrays as the launch
    finds them. -/
theorem flushed_eq (c : Dev nD) (t : Fin cfg7.N) :
    (dat7 V c).flushed 2 t = ((cfg7.win 2).blk t).view.read (Elt Ideal) (addRow (V c main_v75) (V c main_arg9)) := by
  show (cfg7.win 2).cut (grid7.coords t) ((dat7 V c).after 2 t) = _
  rw [after7_2]
  unfold out7_2
  rw [View.canon_unit_zero hz2]
  simp only [View.ld_unit_zero (S := S10000x16) hz2, View.ld_unit_zero (S := S16) hz1]
  obtain ⟨e0, e1, e2, e3, e4⟩ := idx_facts t
  funext j
  obtain ⟨p, q, rfl⟩ : ∃ (p : Fin 10000) (q : Fin 16), j = ix2 p q := ⟨j 0, j 1, eq_ix2 j⟩
  refine (pay_apply _ _ p q).trans ?_
  have h0 : iblk7 V c 0 t (ix2 p q) = V c main_v75 (((cfg7.win 2).blk t).view.emb (ix2 p q)) := by
    show V c main_v75 (((cfg7.win 0).blk t).view.emb (ix2 p q)) = _
    refine congrArg _ (funext fun a => Fin.ext ?_)
    match a with
    | ⟨0, _⟩ => show win7_0.index t (0 : Fin 2) * 10000 + 1 * p.val = win7_2.index t (0 : Fin 2) * 10000 + 1 * p.val; omega
    | ⟨1, _⟩ => show win7_0.index t (1 : Fin 2) * 16 + 1 * q.val = win7_2.index t (1 : Fin 2) * 16 + 1 * q.val; omega
  have h1 : iblk7 V c 1 t (ix1 q) = V c main_arg9 (colOf (((cfg7.win 2).blk t).view.emb (ix2 p q))) := by
    show V c main_arg9 (((cfg7.win 1).blk t).view.emb (ix1 q)) = _
    refine congrArg _ (funext fun a => Fin.ext ?_)
    match a with
    | ⟨0, _⟩ => show win7_1.index t (0 : Fin 1) * 16 + 1 * q.val = win7_2.index t (1 : Fin 2) * 16 + 1 * q.val; omega
  rw [h0, h1]
  rfl

/-- An index of the result array is in point `t`'s block iff each coordinate is in the block's range. -/
theorem mem_blk (t : Fin cfg7.N) (i : S100000x16.Idx) :
    i ∈ ((cfg7.win 2).blk t).view.set ↔ ∀ a : Fin 2, win7_2.index t a * S10000x16.size a ≤ (i a).val ∧ (i a).val < win7_2.index t a * S10000x16.size a + S10000x16.size a := by
  show i ∈ ((View.whole main_v76).slice (win7_2.rect t)).set ↔ _
  rw [View.set_slice_whole, Rect.mem_set_unit]
  exact Iff.rfl

/-- Row `r` lies in the block of point `r / 10000`: the ten blocks cover the array. -/
theorem cover (i : S100000x16.Idx) : ∃ t : Fin cfg7.N, (cfg7.win 2).flush t = true ∧ i ∈ ((cfg7.win 2).blk t).view.set := by
  have hi0 : (i 0).val < 100000 := (i 0).isLt
  have hi1 : (i 1).val < 16 := (i 1).isLt
  let t : Fin cfg7.N := ⟨(i 0).val / 10000, by rw [show cfg7.N = 10 from N_7]; omega⟩
  obtain ⟨e0, e1, e2, e3, e4⟩ := idx_facts t
  refine ⟨t, flush7_2 t, ?_⟩
  rw [mem_blk]
  intro a
  have ht : t.val = (i 0).val / 10000 := rfl
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 16 ≤ (i 1).val ∧ (i 1).val < win7_2.index t (1 : Fin 2) * 16 + 16; omega

/-- The result array after the launch is "the bias added to every row" of the two arrays as the launch finds them. -/
theorem final (c : Dev nD) :
    (dat7 V c).arrAt 2 cfg7.N = addRow (V c main_v75) (V c main_arg9) :=
  (dat7 V c).arrAt_eq_of_cover 2 (addRow (V c main_v75) (V c main_arg9)) (fun t _ => flushed_eq V c t) (cover)

end Cert.KernelIdeal.Bias7

end
-- ==== Proof.EdgeMix.lean ====
/-
  The host operations between the launches, as pure functions.

  The program's host side does three things. From `edge_index` it builds the edge list with one self loop per
  node (sources `src`, destinations `dst`: a row of `edge_index` followed by 0 … 99999) and the symmetric
  normalisation: `deg` counts the edges into each node, `dis = 1/√deg` where `deg > 0` and 0 elsewhere, and an
  edge's weight is `norm = dis[src] · dis[dst]`. Then, once per layer, it mixes node features along the edges:
  gather the rows of `h` at `src`, scale row `e` by `norm e`, and add the rows up at `dst`. An index is first made
  safe for the gather: a negative one wraps by the node count.

  Each stretch of host operations is a fold over the buffer contents; here each is read at the one buffer a
  later segment uses, as a function of the contents the stretch starts from, at any float instance.
-/
import proofs.«112940_j82952998355483_1_alg».proof.Proof.Gen.KernelIdeal.Launch
import Idealize.ShloMosaic.Lib.StableHlo.Run

set_option maxRecDepth 16384

noncomputable section

namespace Cert.KernelIdeal.EdgeMix

open Cert.KernelIdeal Cert.KernelIdeal.Gen
open Idealize.ShloMosaic Idealize.ShloMosaic.TcCoe Idealize.SL.Sem Idealize.ShloMosaic.StableHlo

variable {F : FTy → Type} [FloatOps F]

/-! ## The edge list and its normalisation -/

/-- Row `r` of `edge_index` followed by the self loops 0 … 99999. -/
def endpoints (r : Nat) (hs : S2x1600000.Slices ![r, 0] S1x1600000) (e : (⟨S2x1600000, .i32⟩ : BufTy).Contents (Elt F)) :
    (⟨S1700000, .i32⟩ : BufTy).Contents (Elt F) :=
  concatenate S1700000 0 [⟨S1600000, shapeCast _ (extractStridedSlice S1x1600000 ![r, 0] e hs) shapeCasts_S1x1600000_S1600000⟩,
    ⟨S100000, iotaInDim S100000 32 0⟩] concatenates_S1600000_S100000_S1700000_d0

/-- An index array made safe for a gather over the 100000 nodes (a negative index wraps by the node count), as a
    column. -/
def wrapCol (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The number of edges into each node. -/
def degree (dst : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32))

/-- An edge's weight: the product of its two endpoints' factors. -/
def edgeWeight (src dst : (⟨S1700000, .i32⟩ : BufTy).Contents (Elt F)) (dis : (⟨S100000, .f32⟩ : BufTy).Contents (Elt F)) :
    (⟨S1700000, .f32⟩ : BufTy).Contents (Elt F) :=
  mulf (Host.gather gather_S100000_S1700000x1_S1700000_n_0_n_n_0_1_1 dis (wrapCol (F := F) src))
    (Host.gather gather_S100000_S1700000x1_S1700000_n_0_n_n_0_1_1 dis (wrapCol (F := F) dst))

/-! ## One layer's mixing along the edges -/

/-- Rows of a [100000, 64] array gathered at `src`, row `e` scaled by `norm e`, added up at `dst`. -/
def mix64 (h : (⟨S100000x64, .f32⟩ : BufTy).Contents (Elt F)) (src dst : (⟨S1700000, .i32⟩ : BufTy).Contents (Elt F))
    (norm : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf (Host.gather gather_S100000x64_S1700000x1_S1700000x64_1_0_n_n_0_1_164 h (wrapCol (F := F) src))
      (broadcastInDim S1700000x64 ![0, 1] bcast_S1700000x1_S1700000x64_0_1
        (broadcastInDim S1700000x1 ![0] bcast_S1700000_S1700000x1_0 norm)))

/-- The same over a [100000, 2] array. -/
def mix2 (h : (⟨S100000x2, .f32⟩ : BufTy).Contents (Elt F)) (src dst : (⟨S1700000, .i32⟩ : BufTy).Contents (Elt F))
    (norm : (⟨S1700000, .f32⟩ : BufTy).Contents (Elt F)) : (⟨S100000x2, .f32⟩ : BufTy).Contents (Elt F) :=
  Host.scatterAdd scatter_S100000x2_S1700000x1_S1700000x2_1_0_0_1
    (broadcastInDim S100000x2 ![] bcast_S_S100000x2 (constant S_ .f32 0x00000000#32))
    (broadcastInDim S1700000x1 ![0] bcast_S1700000_S1700000x1_0 dst)
    (mulf (Host.gather gather_S100000x2_S1700000x1_S1700000x2_1_0_n_n_0_1_12 h (wrapCol (F := F) src))
      (broadcastInDim S1700000x2 ![0, 1] bcast_S1700000x1_S1700000x2_0_1
        (broadcastInDim S1700000x1 ![0] bcast_S1700000_S1700000x1_0 norm)))

/-! ## What each stretch leaves, from the contents it starts from -/

variable (W : Valuation τ sig (Elt F))

/-- The first stretch leaves the sources … -/
theorem ops0_src : after hostOps0 W (Proc.devRef .tc main_v3)
    = endpoints 0 slices_S2x1600000_S1x1600000_0_0 (W (Proc.devRef .tc main_arg1)) := by
  after_results; rfl
/-- … the destinations … -/
theorem ops0_dst : after hostOps0 W (Proc.devRef .tc main_v6)
    = endpoints 1 slices_S2x1600000_S1x1600000_1_0 (W (Proc.devRef .tc main_arg1)) := by
  after_results; rfl
/-- … where the degree is positive … -/
theorem ops0_pos : after hostOps0 W (Proc.devRef .tc main_v12)
    = cmpf (F := F) .ogt (degree (endpoints 1 slices_S2x1600000_S1x1600000_1_0 (W (Proc.devRef .tc main_arg1))))
        (broadcastInDim S100000 ![] bcast_S_S100000 (constant S_ .f32 0x00000000#32)) := by
  after_results; rfl
/-- … the reciprocal square root of the degree … -/
theorem ops0_rsqrt : after hostOps0 W (Proc.devRef .tc main_v13)
    = Host.rsqrt (degree (endpoints 1 slices_S2x1600000_S1x1600000_1_0 (W (Proc.devRef .tc main_arg1)))) := by
  after_results; rfl
/-- … and the zero the selection falls back to. -/
theorem ops0_zero : after hostOps0 W (Proc.devRef .tc main_cst_2) = constant (F := F) S_ .f32 0x00000000#32 := by
  after_results

/-- The selection: the reciprocal square root where the degree is positive, zero elsewhere. -/
theorem ops0_1_dis : after hostOps0_1 W (Proc.devRef .tc main_v14)
    = select (W (Proc.devRef .tc main_v12)) (W (Proc.devRef .tc main_v13))
        (broadcastInDim S100000 ![] bcast_S_S100000 (id (W (Proc.devRef .tc main_cst_2)))) := by
  after_results; rfl

set_option maxHeartbeats 4000000 in
/-- The third stretch leaves the edge weights. -/
theorem ops0_2_norm : after hostOps0_2 W (Proc.devRef .tc main_v29)
    = edgeWeight (W (Proc.devRef .tc main_v3)) (W (Proc.devRef .tc main_v6)) (W (Proc.devRef .tc main_v14)) := by
  after_results_simp
  rfl

set_option maxHeartbeats 4000000 in
/-- The stretch after launch 0 mixes its result along the edges. -/
theorem ops1_mix : after hostOps1 W (Proc.devRef .tc main_v43)
    = mix64 (W (Proc.devRef .tc main_v30)) (W (Proc.devRef .tc main_v3)) (W (Proc.devRef .tc main_v6)) (W (Proc.devRef .tc main_v29)) := by
  after_results_simp
  rfl
set_option maxHeartbeats 4000000 in
/-- The stretch after launch 2 mixes its result along the edges. -/
theorem ops3_mix : after hostOps3 W (Proc.devRef .tc main_v58)
    = mix64 (W (Proc.devRef .tc main_v45)) (W (Proc.devRef .tc main_v3)) (W (Proc.devRef .tc main_v6)) (W (Proc.devRef .tc main_v29)) := by
  after_results_simp
  rfl
set_option maxHeartbeats 4000000 in
/-- The stretch after launch 4 mixes its result along the edges. -/
theorem ops5_mix : after hostOps5 W (Proc.devRef .tc main_v73)
    = mix2 (W (Proc.devRef .tc main_v60)) (W (Proc.devRef .tc main_v3)) (W (Proc.devRef .tc main_v6)) (W (Proc.devRef .tc main_v29)) := by
  after_results_simp
  rfl

end Cert.KernelIdeal.EdgeMix

end
-- ==== Proof.RefRead.lean ====
/-
  The reference's host program read back: its run (every result at the operations' composed term of the
  arguments) and its operations one at a time, each stage as a function of the arguments it depends on.
-/
import proofs.«112940_j82952998355483_1_alg».proof.Proof.RefRunP
import proofs.«112940_j82952998355483_1_alg».proof.Proof.RefReadP
-- ==== Proof.Bridge.lean ====
/-
  The kernel's pieces are the reference's stages.

  The reference is a straight line of host operations; read one operation at a time it is a chain of stages, each
  a function of the arguments it depends on. Here each whole-array function a launch was shown to compute is
  matched with the stage the reference computes at the same place: a launch's matrix product with the host's
  `dot_general` (both are the sum over the contracted axis on the extended reals), "add the bias to every row"
  with the host's two broadcasts and its add (and the hyperbolic tangent with the host's), and the host
  operations between the launches with the same operations of the reference.
-/
import proofs.«112940_j82952998355483_1_alg».proof.Proof.Linear0
import proofs.«112940_j82952998355483_1_alg».proof.Proof.Linear2
import proofs.«112940_j82952998355483_1_alg».proof.Proof.Linear4
import proofs.«112940_j82952998355483_1_alg».proof.Proof.Linear6
import proofs.«112940_j82952998355483_1_alg».proof.Proof.Bias1
import proofs.«112940_j82952998355483_1_alg».proof.Proof.Bias3
import proofs.«112940_j82952998355483_1_alg».proof.Proof.Bias5
import proofs.«112940_j82952998355483_1_alg».proof.Proof.Bias7
import proofs.«112940_j82952998355483_1_alg».proof.Proof.EdgeMix
import proofs.«112940_j82952998355483_1_alg».proof.Proof.RefRead

set_option maxRecDepth 16384

noncomputable section

namespace Cert.Bridge

open Cert.KernelIdeal Cert.KernelIdeal.Gen Cert.ReferenceIdeal.ReadP
open Idealize.ShloMosaic Idealize.ShloMosaic.TcCoe Idealize.SL.Sem

/-! ## The four matrix products -/

/-- Launch 0's product is the reference's first `dot_general`. -/
theorem prod0 (x0 : (⟨S100000x128, .f32⟩ : BufTy).Contents (Elt Ideal)) (x2 : (⟨S128x64, .f32⟩ : BufTy).Contents (Elt Ideal)) :
    Linear0.prod x0 x2 = val_main_v30 x0 x2 := by
  funext i
  rw [val_main_v30_apply]
  simp only [Linear0.prod]
  refine Finset.sum_congr rfl fun k _ => ?_
  have e1 : Linear0.rowK i k = lidx_main_v30 i k := funext fun a => by match a with | ⟨0, _⟩ => rfl | ⟨1, _⟩ => rfl
  have e2 : Linear0.kCol i k = ridx_main_v30 i k := funext fun a => by match a with | ⟨0, _⟩ => rfl | ⟨1, _⟩ => rfl
  rw [e1, e2]

/-- Launch 2's product is the reference's second `dot_general`. -/
theorem prod2 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) :
    Linear2.prod (val_main_v46 x0 x1 x2 x3) x4 = val_main_v47 x0 x1 x2 x3 x4 := by
  funext i
  rw [val_main_v47_apply]
  simp only [Linear2.prod]
  refine Finset.sum_congr rfl fun k _ => ?_
  have e1 : Linear2.rowK i k = lidx_main_v47 i k := funext fun a => by match a with | ⟨0, _⟩ => rfl | ⟨1, _⟩ => rfl
  have e2 : Linear2.kCol i k = ridx_main_v47 i k := funext fun a => by match a with | ⟨0, _⟩ => rfl | ⟨1, _⟩ => rfl
  rw [e1, e2]

/-- Launch 4's product is the reference's third `dot_general`. -/
theorem prod4 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x2, .f32⟩ : BufTy).Contents (Elt Ideal)) :
    Linear4.prod (val_main_v64 x0 x1 x2 x3 x4 x5) x6 = val_main_v65 x0 x1 x2 x3 x4 x5 x6 := by
  funext i
  rw [val_main_v65_apply]
  simp only [Linear4.prod]
  refine Finset.sum_congr rfl fun k _ => ?_
  have e1 : Linear4.rowK i k = lidx_main_v65 i k := funext fun a => by match a with | ⟨0, _⟩ => rfl | ⟨1, _⟩ => rfl
  have e2 : Linear4.kCol i k = ridx_main_v65 i k := funext fun a => by match a with | ⟨0, _⟩ => rfl | ⟨1, _⟩ => rfl
  rw [e1, e2]

/-- Launch 6's product is the reference's last `dot_general`. -/
theorem prod6 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x2, .f32⟩ : BufTy).Contents (Elt Ideal)) (x7 : (⟨S2, .f32⟩ : BufTy).Contents (Elt Ideal)) (x8 : (⟨S2x16, .f32⟩ : BufTy).Contents (Elt Ideal)) :
    Linear6.prod (val_main_v82 x0 x1 x2 x3 x4 x5 x6 x7) x8 = val_main_v83 x0 x1 x2 x3 x4 x5 x6 x7 x8 := by
  funext i
  rw [val_main_v83_apply]
  simp only [Linear6.prod]
  refine Finset.sum_congr rfl fun k _ => ?_
  have e1 : Linear6.rowK i k = lidx_main_v83 i k := funext fun a => by match a with | ⟨0, _⟩ => rfl | ⟨1, _⟩ => rfl
  have e2 : Linear6.kCol i k = ridx_main_v83 i k := funext fun a => by match a with | ⟨0, _⟩ => rfl | ⟨1, _⟩ => rfl
  rw [e1, e2]

/-! ## The four bias rows, two of them under the hyperbolic tangent -/

/-- Launch 1's row-wise add is the reference's first layer output. -/
theorem bias1 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) :
    Bias1.addRow (val_main_v43 x0 x1 x2) x3 = val_main_v46 x0 x1 x2 x3 := by
  funext i
  rw [val_main_v46_apply, val_main_v45_apply, val_main_v44_apply]
  generalize val_main_v43 x0 x1 x2 = y
  have e : idx_main_v44 (idx_main_v45 i) = Bias1.colOf i := funext fun a => by match a with | ⟨0, _⟩ => rfl
  rw [e]
  rfl

/-- Launch 3's activation is the reference's second layer output. -/
theorem bias3 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    Bias3.tanhAddRow (val_main_v60 x0 x1 x2 x3 x4) x5 = val_main_v64 x0 x1 x2 x3 x4 x5 := by
  funext i
  rw [val_main_v64_apply, val_main_v63_apply, val_main_v62_apply, val_main_v61_apply]
  generalize val_main_v60 x0 x1 x2 x3 x4 = y
  have e : idx_main_v61 (idx_main_v62 i) = Bias3.colOf i := funext fun a => by match a with | ⟨0, _⟩ => rfl
  rw [e]
  rfl

/-- Launch 5's activation is the reference's embeddings. -/
theorem bias5 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x2, .f32⟩ : BufTy).Contents (Elt Ideal)) (x7 : (⟨S2, .f32⟩ : BufTy).Contents (Elt Ideal)) :
    Bias5.tanhAddRow (val_main_v78 x0 x1 x2 x3 x4 x5 x6) x7 = val_main_v82 x0 x1 x2 x3 x4 x5 x6 x7 := by
  funext i
  rw [val_main_v82_apply, val_main_v81_apply, val_main_v80_apply, val_main_v79_apply]
  generalize val_main_v78 x0 x1 x2 x3 x4 x5 x6 = y
  have e : idx_main_v79 (idx_main_v80 i) = Bias5.colOf i := funext fun a => by match a with | ⟨0, _⟩ => rfl
  rw [e]
  rfl

/-- Launch 7's row-wise add is the reference's logits. -/
theorem bias7 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x2, .f32⟩ : BufTy).Contents (Elt Ideal)) (x7 : (⟨S2, .f32⟩ : BufTy).Contents (Elt Ideal)) (x8 : (⟨S2x16, .f32⟩ : BufTy).Contents (Elt Ideal)) (x9 : (⟨S16, .f32⟩ : BufTy).Contents (Elt Ideal)) :
    Bias7.addRow (val_main_v83 x0 x1 x2 x3 x4 x5 x6 x7 x8) x9 = val_main_v86 x0 x1 x2 x3 x4 x5 x6 x7 x8 x9 := by
  funext i
  rw [val_main_v86_apply, val_main_v85_apply, val_main_v84_apply]
  generalize val_main_v83 x0 x1 x2 x3 x4 x5 x6 x7 x8 = y
  have e : idx_main_v84 (idx_main_v85 i) = Bias7.colOf i := funext fun a => by match a with | ⟨0, _⟩ => rfl
  rw [e]
  rfl

/-! ## The host operations between the launches -/

/-- The sources, the destinations, the selection and the edge weights are the reference's. -/
theorem src_eq (x1 : (⟨S2x1600000, .i32⟩ : BufTy).Contents (Elt Ideal)) :
    EdgeMix.endpoints 0 slices_S2x1600000_S1x1600000_0_0 x1 = val_main_v3 x1 := rfl
theorem dst_eq (x1 : (⟨S2x1600000, .i32⟩ : BufTy).Contents (Elt Ideal)) :
    EdgeMix.endpoints 1 slices_S2x1600000_S1x1600000_1_0 x1 = val_main_v6 x1 := rfl
theorem dis_eq (x1 : (⟨S2x1600000, .i32⟩ : BufTy).Contents (Elt Ideal)) :
    select (cmpf (F := Ideal) .ogt (EdgeMix.degree (val_main_v6 x1)) (broadcastInDim S100000 ![] bcast_S_S100000 (constant S_ .f32 0x00000000#32)))
        (Host.rsqrt (EdgeMix.degree (val_main_v6 x1)))
        (broadcastInDim S100000 ![] bcast_S_S100000 (id (constant (F := Ideal) S_ .f32 0x00000000#32)))
      = val_main_v14 x1 := rfl
theorem norm_eq (x1 : (⟨S2x1600000, .i32⟩ : BufTy).Contents (Elt Ideal)) :
    EdgeMix.edgeWeight (val_main_v3 x1) (val_main_v6 x1) (val_main_v14 x1) = val_main_v29 x1 := rfl

/-- Mixing the first product along the edges is the reference's first aggregation. -/
theorem mix_a (x0 : (⟨S100000x128, .f32⟩ : BufTy).Contents (Elt Ideal)) (x1 : (⟨S2x1600000, .i32⟩ : BufTy).Contents (Elt Ideal)) (x2 : (⟨S128x64, .f32⟩ : BufTy).Contents (Elt Ideal)) :
    EdgeMix.mix64 (val_main_v30 x0 x2) (val_main_v3 x1) (val_main_v6 x1) (val_main_v29 x1) = val_main_v43 x0 x1 x2 := rfl
/-- Mixing the second product along the edges is the reference's second aggregation. -/
theorem mix_b (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) :
    EdgeMix.mix64 (val_main_v47 x0 x1 x2 x3 x4) (val_main_v3 x1) (val_main_v6 x1) (val_main_v29 x1) = val_main_v60 x0 x1 x2 x3 x4 := rfl
/-- Mixing the third product along the edges is the reference's third aggregation. -/
theorem mix_c (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x2, .f32⟩ : BufTy).Contents (Elt Ideal)) :
    EdgeMix.mix2 (val_main_v65 x0 x1 x2 x3 x4 x5 x6) (val_main_v3 x1) (val_main_v6 x1) (val_main_v29 x1) = val_main_v78 x0 x1 x2 x3 x4 x5 x6 := rfl

end Cert.Bridge

end
-- ==== Proof.Carry.lean ====
/-
  Which buffers pass unchanged across which segments.

  The frame folds the buffer contents through fourteen boundaries. A stretch of host operations changes only the
  buffers its operations write; a launch changes only its output array. So an argument array is still the launch
  memory's when the launch that reads it is entered, the edge list and its weights (computed before the first
  launch) are the same at each of the three stretches that mix features along the edges, and the embeddings,
  written by launch 5 and read by launch 6, are still there at the return.
-/
import proofs.«112940_j82952998355483_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem
open Idealize.ShloMosaic.Pipeline (Dat)

variable {F : FTy → Type} [FloatOps F]

/-! ## What each stretch of host operations writes -/

abbrev written0 : List (Ref sig .tc) := [main_v0, main_v1, main_v2, main_v3, main_v4, main_v5, main_v6, main_cst, main_v7, main_cst_0, main_v8, main_v9, main_v10, main_cst_1, main_v11, main_v12, main_v13, main_cst_2]
abbrev written0_1 : List (Ref sig .tc) := [main_call0_v0, main_call0_v1, main_v14]
abbrev written0_2 : List (Ref sig .tc) := [main_c, main_v15, main_v16, main_c_3, main_v17, main_v18, main_v19, main_v20, main_v21, main_c_4, main_v22, main_v23, main_c_5, main_v24, main_v25, main_v26, main_v27, main_v28, main_v29]
abbrev written1 : List (Ref sig .tc) := [main_c_6, main_v31, main_v32, main_c_7, main_v33, main_v34, main_v35, main_v36, main_v37, main_v38, main_v39, main_v40, main_cst_8, main_v41, main_v42, main_v43]
abbrev written3 : List (Ref sig .tc) := [main_c_9, main_v46, main_v47, main_c_10, main_v48, main_v49, main_v50, main_v51, main_v52, main_v53, main_v54, main_v55, main_cst_11, main_v56, main_v57, main_v58]
abbrev written5 : List (Ref sig .tc) := [main_c_12, main_v61, main_v62, main_c_13, main_v63, main_v64, main_v65, main_v66, main_v67, main_v68, main_v69, main_v70, main_cst_14, main_v71, main_v72, main_v73]

theorem writes0 : (hostOps0 : List (HloOp τ sig (Elt F))).Forall fun op => op.writes ⊆ (written0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem writes0_1 : (hostOps0_1 : List (HloOp τ sig (Elt F))).Forall fun op => op.writes ⊆ (written0_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem writes0_2 : (hostOps0_2 : List (HloOp τ sig (Elt F))).Forall fun op => op.writes ⊆ (written0_2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem writes1 : (hostOps1 : List (HloOp τ sig (Elt F))).Forall fun op => op.writes ⊆ (written1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem writes3 : (hostOps3 : List (HloOp τ sig (Elt F))).Forall fun op => op.writes ⊆ (written3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem writes5 : (hostOps5 : List (HloOp τ sig (Elt F))).Forall fun op => op.writes ⊆ (written5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

variable (W : Valuation τ sig (Elt F))

/-- A buffer a stretch does not write keeps its contents across it. -/
theorem keep0 (r : Ref sig .tc) (h : r ∉ written0) : StableHlo.after hostOps0 W (Proc.devRef .tc r) = W (Proc.devRef .tc r) :=
  StableHlo.after_of_writes_sub hostOps0 W writes0 h
theorem keep0_1 (r : Ref sig .tc) (h : r ∉ written0_1) : StableHlo.after hostOps0_1 W (Proc.devRef .tc r) = W (Proc.devRef .tc r) :=
  StableHlo.after_of_writes_sub hostOps0_1 W writes0_1 h
theorem keep0_2 (r : Ref sig .tc) (h : r ∉ written0_2) : StableHlo.after hostOps0_2 W (Proc.devRef .tc r) = W (Proc.devRef .tc r) :=
  StableHlo.after_of_writes_sub hostOps0_2 W writes0_2 h
theorem keep1 (r : Ref sig .tc) (h : r ∉ written1) : StableHlo.after hostOps1 W (Proc.devRef .tc r) = W (Proc.devRef .tc r) :=
  StableHlo.after_of_writes_sub hostOps1 W writes1 h
theorem keep3 (r : Ref sig .tc) (h : r ∉ written3) : StableHlo.after hostOps3 W (Proc.devRef .tc r) = W (Proc.devRef .tc r) :=
  StableHlo.after_of_writes_sub hostOps3 W writes3 h
theorem keep5 (r : Ref sig .tc) (h : r ∉ written5) : StableHlo.after hostOps5 W (Proc.devRef .tc r) = W (Proc.devRef .tc r) :=
  StableHlo.after_of_writes_sub hostOps5 W writes5 h

/-! ## The arguments, each where a segment reads it -/

variable (m : (ℓ : Loc nD τ sig) → Buf (Elt F) ℓ) (ρ : Dev nD → PrngReg)

/-- The edge index is the launch memory's where the first stretch reads it. -/
theorem arg1_at0 (c : Dev nD) : W0 m ρ c (Proc.devRef .tc main_arg1) = m ((c : Thread nD τ).loc main_arg1) := rfl
/-- The node features are the launch memory's when launch 0 is entered. -/
theorem arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := keep0_2 _ main_arg0 (by decide)
    _ = W1 m ρ c (Proc.devRef .tc main_arg0) := keep0_1 _ main_arg0 (by decide)
    _ = W0 m ρ c (Proc.devRef .tc main_arg0) := keep0 _ main_arg0 (by decide)
    _ = m ((c : Thread nD τ).loc main_arg0) := rfl
/-- The first weight matrix is the launch memory's when launch 0 is entered. -/
theorem arg2_at3 (c : Dev nD) : W3 m ρ c (Proc.devRef .tc main_arg2) = m ((c : Thread nD τ).loc main_arg2) :=
  calc W3 m ρ c (Proc.devRef .tc main_arg2)
    _ = W2 m ρ c (Proc.devRef .tc main_arg2) := keep0_2 _ main_arg2 (by decide)
    _ = W1 m ρ c (Proc.devRef .tc main_arg2) := keep0_1 _ main_arg2 (by decide)
    _ = W0 m ρ c (Proc.devRef .tc main_arg2) := keep0 _ main_arg2 (by decide)
    _ = m ((c : Thread nD τ).loc main_arg2) := rfl
/-- The first bias is the launch memory's when launch 1 is entered. -/
theorem arg3_at5 (c : Dev nD) : W5 m ρ c (Proc.devRef .tc main_arg3) = m ((c : Thread nD τ).loc main_arg3) :=
  calc W5 m ρ c (Proc.devRef .tc main_arg3)
    _ = W4 m ρ c (Proc.devRef .tc main_arg3) := keep1 _ main_arg3 (by decide)
    _ = W3 m ρ c (Proc.devRef .tc main_arg3) := W4_of_ne m ρ c main_arg3 (by decide)
    _ = W2 m ρ c (Proc.devRef .tc main_arg3) := keep0_2 _ main_arg3 (by decide)
    _ = W1 m ρ c (Proc.devRef .tc main_arg3) := keep0_1 _ main_arg3 (by decide)
    _ = W0 m ρ c (Proc.devRef .tc main_arg3) := keep0 _ main_arg3 (by decide)
    _ = m ((c : Thread nD τ).loc main_arg3) := rfl
/-- The second weight matrix is the launch memory's when launch 2 is entered. -/
theorem arg4_at6 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := keep1 _ main_arg4 (by decide)
    _ = W3 m ρ c (Proc.devRef .tc main_arg4) := W4_of_ne m ρ c main_arg4 (by decide)
    _ = W2 m ρ c (Proc.devRef .tc main_arg4) := keep0_2 _ main_arg4 (by decide)
    _ = W1 m ρ c (Proc.devRef .tc main_arg4) := keep0_1 _ main_arg4 (by decide)
    _ = W0 m ρ c (Proc.devRef .tc main_arg4) := keep0 _ main_arg4 (by decide)
    _ = m ((c : Thread nD τ).loc main_arg4) := rfl
/-- The second bias is the launch memory's when launch 3 is entered. -/
theorem arg5_at8 (c : Dev nD) : W8 m ρ c (Proc.devRef .tc main_arg5) = m ((c : Thread nD τ).loc main_arg5) :=
  calc W8 m ρ c (Proc.devRef .tc main_arg5)
    _ = W7 m ρ c (Proc.devRef .tc main_arg5) := keep3 _ main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := keep1 _ main_arg5 (by decide)
    _ = W3 m ρ c (Proc.devRef .tc main_arg5) := W4_of_ne m ρ c main_arg5 (by decide)
    _ = W2 m ρ c (Proc.devRef .tc main_arg5) := keep0_2 _ main_arg5 (by decide)
    _ = W1 m ρ c (Proc.devRef .tc main_arg5) := keep0_1 _ main_arg5 (by decide)
    _ = W0 m ρ c (Proc.devRef .tc main_arg5) := keep0 _ main_arg5 (by decide)
    _ = m ((c : Thread nD τ).loc main_arg5) := rfl
/-- The third weight matrix is the launch memory's when launch 4 is entered. -/
theorem arg6_at9 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := keep3 _ main_arg6 (by decide)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := keep1 _ main_arg6 (by decide)
    _ = W3 m ρ c (Proc.devRef .tc main_arg6) := W4_of_ne m ρ c main_arg6 (by decide)
    _ = W2 m ρ c (Proc.devRef .tc main_arg6) := keep0_2 _ main_arg6 (by decide)
    _ = W1 m ρ c (Proc.devRef .tc main_arg6) := keep0_1 _ main_arg6 (by decide)
    _ = W0 m ρ c (Proc.devRef .tc main_arg6) := keep0 _ main_arg6 (by decide)
    _ = m ((c : Thread nD τ).loc main_arg6) := rfl
/-- The third bias is the launch memory's when launch 5 is entered. -/
theorem arg7_at11 (c : Dev nD) : W11 m ρ c (Proc.devRef .tc main_arg7) = m ((c : Thread nD τ).loc main_arg7) :=
  calc W11 m ρ c (Proc.devRef .tc main_arg7)
    _ = W10 m ρ c (Proc.devRef .tc main_arg7) := keep5 _ main_arg7 (by decide)
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := keep3 _ main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := keep1 _ main_arg7 (by decide)
    _ = W3 m ρ c (Proc.devRef .tc main_arg7) := W4_of_ne m ρ c main_arg7 (by decide)
    _ = W2 m ρ c (Proc.devRef .tc main_arg7) := keep0_2 _ main_arg7 (by decide)
    _ = W1 m ρ c (Proc.devRef .tc main_arg7) := keep0_1 _ main_arg7 (by decide)
    _ = W0 m ρ c (Proc.devRef .tc main_arg7) := keep0 _ main_arg7 (by decide)
    _ = m ((c : Thread nD τ).loc main_arg7) := rfl
/-- The classifier's weight matrix is the launch memory's when launch 6 is entered. -/
theorem arg8_at12 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := keep5 _ main_arg8 (by decide)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := keep3 _ main_arg8 (by decide)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := keep1 _ main_arg8 (by decide)
    _ = W3 m ρ c (Proc.devRef .tc main_arg8) := W4_of_ne m ρ c main_arg8 (by decide)
    _ = W2 m ρ c (Proc.devRef .tc main_arg8) := keep0_2 _ main_arg8 (by decide)
    _ = W1 m ρ c (Proc.devRef .tc main_arg8) := keep0_1 _ main_arg8 (by decide)
    _ = W0 m ρ c (Proc.devRef .tc main_arg8) := keep0 _ main_arg8 (by decide)
    _ = m ((c : Thread nD τ).loc main_arg8) := rfl
/-- The classifier's bias is the launch memory's when launch 7 is entered. -/
theorem arg9_at13 (c : Dev nD) : W13 m ρ c (Proc.devRef .tc main_arg9) = m ((c : Thread nD τ).loc main_arg9) :=
  calc W13 m ρ c (Proc.devRef .tc main_arg9)
    _ = W12 m ρ c (Proc.devRef .tc main_arg9) := W13_of_ne m ρ c main_arg9 (by decide)
    _ = W11 m ρ c (Proc.devRef .tc main_arg9) := W12_of_ne m ρ c main_arg9 (by decide)
    _ = W10 m ρ c (Proc.devRef .tc main_arg9) := keep5 _ main_arg9 (by decide)
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := keep3 _ main_arg9 (by decide)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := keep1 _ main_arg9 (by decide)
    _ = W3 m ρ c (Proc.devRef .tc main_arg9) := W4_of_ne m ρ c main_arg9 (by decide)
    _ = W2 m ρ c (Proc.devRef .tc main_arg9) := keep0_2 _ main_arg9 (by decide)
    _ = W1 m ρ c (Proc.devRef .tc main_arg9) := keep0_1 _ main_arg9 (by decide)
    _ = W0 m ρ c (Proc.devRef .tc main_arg9) := keep0 _ main_arg9 (by decide)
    _ = m ((c : Thread nD τ).loc main_arg9) := rfl

/-! ## The edge list and its weights, at each stretch that mixes along the edges -/

theorem src_at4 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)
theorem dst_at4 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)
theorem norm_at4 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)
theorem src_at7 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := keep1 _ main_v3 (by decide)
    _ = W3 m ρ c (Proc.devRef .tc main_v3) := W4_of_ne m ρ c main_v3 (by decide)
theorem dst_at7 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := keep1 _ main_v6 (by decide)
    _ = W3 m ρ c (Proc.devRef .tc main_v6) := W4_of_ne m ρ c main_v6 (by decide)
theorem norm_at7 (c : Dev nD) : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := keep1 _ main_v29 (by decide)
    _ = W3 m ρ c (Proc.devRef .tc main_v29) := W4_of_ne m ρ c main_v29 (by decide)
theorem src_at10 (c : Dev nD) : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := keep3 _ main_v3 (by decide)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := keep1 _ main_v3 (by decide)
    _ = W3 m ρ c (Proc.devRef .tc main_v3) := W4_of_ne m ρ c main_v3 (by decide)
theorem dst_at10 (c : Dev nD) : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := keep3 _ main_v6 (by decide)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := keep1 _ main_v6 (by decide)
    _ = W3 m ρ c (Proc.devRef .tc main_v6) := W4_of_ne m ρ c main_v6 (by decide)
theorem norm_at10 (c : Dev nD) : W10 m ρ c (Proc.devRef .tc main_v29) = W3 m ρ c (Proc.devRef .tc main_v29) :=
  calc W10 m ρ c (Proc.devRef .tc main_v29)
    _ = W9 m ρ c (Proc.devRef .tc main_v29) := W10_of_ne m ρ c main_v29 (by decide)
    _ = W8 m ρ c (Proc.devRef .tc main_v29) := W9_of_ne m ρ c main_v29 (by decide)
    _ = W7 m ρ c (Proc.devRef .tc main_v29) := keep3 _ main_v29 (by decide)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := keep1 _ main_v29 (by decide)
    _ = W3 m ρ c (Proc.devRef .tc main_v29) := W4_of_ne m ρ c main_v29 (by decide)

/-- The sources and destinations, written by the first stretch, are still there when the third reads them. -/
theorem src_at2 (c : Dev nD) : W2 m ρ c (Proc.devRef .tc main_v3) = W1 m ρ c (Proc.devRef .tc main_v3) := keep0_1 _ main_v3 (by decide)
theorem dst_at2 (c : Dev nD) : W2 m ρ c (Proc.devRef .tc main_v6) = W1 m ρ c (Proc.devRef .tc main_v6) := keep0_1 _ main_v6 (by decide)
theorem src_at3 (c : Dev nD) : W3 m ρ c (Proc.devRef .tc main_v3) = W1 m ρ c (Proc.devRef .tc main_v3) :=
  (keep0_2 _ main_v3 (by decide)).trans (src_at2 m ρ c)
theorem dst_at3 (c : Dev nD) : W3 m ρ c (Proc.devRef .tc main_v6) = W1 m ρ c (Proc.devRef .tc main_v6) :=
  (keep0_2 _ main_v6 (by decide)).trans (dst_at2 m ρ c)

/-! ## The embeddings at the return -/

/-- Launch 6 reads the embeddings through an input window, which leaves the array as entered; launch 7 does not
    touch it. -/
theorem emb_at14 (c : Dev nD) : W14 m ρ c (Proc.devRef .tc main_v74) = W12 m ρ c (Proc.devRef .tc main_v74) :=
  calc W14 m ρ c (Proc.devRef .tc main_v74)
    _ = W13 m ρ c (Proc.devRef .tc main_v74) := W14_of_ne m ρ c main_v74 (by decide)
    _ = W12 m ρ c (Proc.devRef .tc main_v74) := (W13_arr m ρ c 0).trans (((dat6 (V12 m ρ) c).arrAt_in 0 rfl _).trans (A_eq6 (V12 m ρ) c 0))

end Cert.KernelIdeal.Carry

end
-- ==== Proof.Chain.lean ====
/-
  The idealized kernel's buffer contents, boundary by boundary, are the reference's stages.

  Walking the frame's fold from the launch to the return: the first three stretches leave the edge list and its
  weights; launch 0 leaves the first product; the stretch after it mixes that along the edges; launch 1 adds the
  bias; launch 2 multiplies; … ; launch 7 leaves the logits. At each step the buffer a later segment reads holds the
  reference's stage at the same place, as a function of the launch memory's argument arrays: each launch by its
  whole-array function and the matching of that function with the reference's stage, each stretch by the pure
  function it computes, and each input by the fact that nothing wrote it since it was produced.
-/
import proofs.«112940_j82952998355483_1_alg».proof.Proof.Bridge
import proofs.«112940_j82952998355483_1_alg».proof.Proof.Carry

set_option maxRecDepth 16384

noncomputable section

namespace Cert.Chain

open Cert.KernelIdeal Cert.KernelIdeal.Gen Cert.ReferenceIdeal.ReadP
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## Before the first launch: the edge list and its weights -/

/-- The sources, where launch 0 is entered. -/
theorem src : W3 m ρ c (Proc.devRef .tc main_v3) = val_main_v3 (m ((c : Thread nD τ).loc main_arg1)) := by
  refine (Carry.src_at3 m ρ c).trans ((EdgeMix.ops0_src (W0 m ρ c)).trans ?_)
  rw [Carry.arg1_at0 m ρ c]
  exact Bridge.src_eq _
/-- The destinations, where launch 0 is entered. -/
theorem dst : W3 m ρ c (Proc.devRef .tc main_v6) = val_main_v6 (m ((c : Thread nD τ).loc main_arg1)) := by
  refine (Carry.dst_at3 m ρ c).trans ((EdgeMix.ops0_dst (W0 m ρ c)).trans ?_)
  rw [Carry.arg1_at0 m ρ c]
  exact Bridge.dst_eq _
/-- The endpoints' factor `1/√deg`, zero where the degree is not positive, after the selection. -/
theorem dis : W2 m ρ c (Proc.devRef .tc main_v14) = val_main_v14 (m ((c : Thread nD τ).loc main_arg1)) := by
  refine (EdgeMix.ops0_1_dis (W1 m ρ c)).trans ?_
  have p12 : W1 m ρ c (Proc.devRef .tc main_v12) = _ := EdgeMix.ops0_pos (W0 m ρ c)
  have p13 : W1 m ρ c (Proc.devRef .tc main_v13) = _ := EdgeMix.ops0_rsqrt (W0 m ρ c)
  have p0 : W1 m ρ c (Proc.devRef .tc main_cst_2) = _ := EdgeMix.ops0_zero (W0 m ρ c)
  rw [p12, p13, p0, Carry.arg1_at0 m ρ c, Bridge.dst_eq]
  exact Bridge.dis_eq _
/-- The edge weights, where launch 0 is entered. -/
theorem norm : W3 m ρ c (Proc.devRef .tc main_v29) = val_main_v29 (m ((c : Thread nD τ).loc main_arg1)) := by
  refine (EdgeMix.ops0_2_norm (W2 m ρ c)).trans ?_
  have q3 : W1 m ρ c (Proc.devRef .tc main_v3) = _ := EdgeMix.ops0_src (W0 m ρ c)
  have q6 : W1 m ρ c (Proc.devRef .tc main_v6) = _ := EdgeMix.ops0_dst (W0 m ρ c)
  rw [Carry.src_at2 m ρ c, q3, Carry.dst_at2 m ρ c, q6, dis m ρ c, Carry.arg1_at0 m ρ c, Bridge.src_eq, Bridge.dst_eq]
  exact Bridge.norm_eq _

/-! ## The three layers and the classifier -/

/-- Launch 0 leaves the first product. -/
theorem h0 : W4 m ρ c (Proc.devRef .tc main_v30) = val_main_v30 (m ((c : Thread nD τ).loc main_arg0)) (m ((c : Thread nD τ).loc main_arg2)) := by
  refine (W4_arr m ρ c 2).trans ((Linear0.final (V3 m ρ) c).trans ?_)
  have h1 : V3 m ρ c main_arg0 = _ := Carry.arg0_at3 m ρ c
  have h2 : V3 m ρ c main_arg2 = _ := Carry.arg2_at3 m ρ c
  rw [h1, h2]
  exact Bridge.prod0 _ _
/-- The stretch after it leaves the first aggregation. -/
theorem g0 : W5 m ρ c (Proc.devRef .tc main_v43) = val_main_v43 (m ((c : Thread nD τ).loc main_arg0)) (m ((c : Thread nD τ).loc main_arg1)) (m ((c : Thread nD τ).loc main_arg2)) := by
  refine (EdgeMix.ops1_mix (W4 m ρ c)).trans ?_
  rw [h0 m ρ c, Carry.src_at4 m ρ c, src m ρ c, Carry.dst_at4 m ρ c, dst m ρ c, Carry.norm_at4 m ρ c, norm m ρ c]
  exact Bridge.mix_a _ _ _
/-- Launch 1 leaves the first layer's output. -/
theorem y0 : W6 m ρ c (Proc.devRef .tc main_v44) = val_main_v46 (m ((c : Thread nD τ).loc main_arg0)) (m ((c : Thread nD τ).loc main_arg1)) (m ((c : Thread nD τ).loc main_arg2)) (m ((c : Thread nD τ).loc main_arg3)) := by
  refine (W6_arr m ρ c 2).trans ((Bias1.final (V5 m ρ) c).trans ?_)
  have h1 : V5 m ρ c main_v43 = _ := g0 m ρ c
  have h2 : V5 m ρ c main_arg3 = _ := Carry.arg3_at5 m ρ c
  rw [h1, h2]
  exact Bridge.bias1 _ _ _ _
/-- Launch 2 leaves the second product. -/
theorem h1 : W7 m ρ c (Proc.devRef .tc main_v45) = val_main_v47 (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Linear2.final (V6 m ρ) c).trans ?_)
  have h1 : V6 m ρ c main_v44 = _ := y0 m ρ c
  have h2 : V6 m ρ c main_arg4 = _ := Carry.arg4_at6 m ρ c
  rw [h1, h2]
  exact Bridge.prod2 _ _ _ _ _
/-- The stretch after it leaves the second aggregation. -/
theorem g1 : W8 m ρ c (Proc.devRef .tc main_v58) = val_main_v60 (m ((c : Thread nD τ).loc main_arg0)) (m ((c : Thread nD τ).loc main_arg1)) (m ((c : Thread nD τ).loc main_arg2)) (m ((c : Thread nD τ).loc main_arg3)) (m ((c : Thread nD τ).loc main_arg4)) := by
  refine (EdgeMix.ops3_mix (W7 m ρ c)).trans ?_
  rw [h1 m ρ c, Carry.src_at7 m ρ c, src m ρ c, Carry.dst_at7 m ρ c, dst m ρ c, Carry.norm_at7 m ρ c, norm m ρ c]
  exact Bridge.mix_b _ _ _ _ _
/-- Launch 3 leaves the second layer's output. -/
theorem y1 : W9 m ρ c (Proc.devRef .tc main_v59) = val_main_v64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((Bias3.final (V8 m ρ) c).trans ?_)
  have h1 : V8 m ρ c main_v58 = _ := g1 m ρ c
  have h2 : V8 m ρ c main_arg5 = _ := Carry.arg5_at8 m ρ c
  rw [h1, h2]
  exact Bridge.bias3 _ _ _ _ _ _
/-- Launch 4 leaves the third product. -/
theorem h2 : W10 m ρ c (Proc.devRef .tc main_v60) = val_main_v65 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ((Linear4.final (V9 m ρ) c).trans ?_)
  have h1 : V9 m ρ c main_v59 = _ := y1 m ρ c
  have h2 : V9 m ρ c main_arg6 = _ := Carry.arg6_at9 m ρ c
  rw [h1, h2]
  exact Bridge.prod4 _ _ _ _ _ _ _
/-- The stretch after it leaves the third aggregation. -/
theorem g2 : W11 m ρ c (Proc.devRef .tc main_v73) = val_main_v78 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (EdgeMix.ops5_mix (W10 m ρ c)).trans ?_
  rw [h2 m ρ c, Carry.src_at10 m ρ c, src m ρ c, Carry.dst_at10 m ρ c, dst m ρ c, Carry.norm_at10 m ρ c, norm m ρ c]
  exact Bridge.mix_c _ _ _ _ _ _ _
/-- Launch 5 leaves the embeddings. -/
theorem y2 : W12 m ρ c (Proc.devRef .tc main_v74) = val_main_v82 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ((Bias5.final (V11 m ρ) c).trans ?_)
  have h1 : V11 m ρ c main_v73 = _ := g2 m ρ c
  have h2 : V11 m ρ c main_arg7 = _ := Carry.arg7_at11 m ρ c
  rw [h1, h2]
  exact Bridge.bias5 _ _ _ _ _ _ _ _
/-- Launch 6 leaves the classifier's product. -/
theorem h3 : W13 m ρ c (Proc.devRef .tc main_v75) = val_main_v83 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W13_arr m ρ c 2).trans ((Linear6.final (V12 m ρ) c).trans ?_)
  have h1 : V12 m ρ c main_v74 = _ := y2 m ρ c
  have h2 : V12 m ρ c main_arg8 = _ := Carry.arg8_at12 m ρ c
  rw [h1, h2]
  exact Bridge.prod6 _ _ _ _ _ _ _ _ _
/-- Launch 7 leaves the logits: the first result, at the return. -/
theorem logits : W14 m ρ c (Proc.devRef .tc main_v76) = val_main_v86 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W14_arr m ρ c 2).trans ((Bias7.final (V13 m ρ) c).trans ?_)
  have h1 : V13 m ρ c main_v75 = _ := h3 m ρ c
  have h2 : V13 m ρ c main_arg9 = _ := Carry.arg9_at13 m ρ c
  rw [h1, h2]
  exact Bridge.bias7 _ _ _ _ _ _ _ _ _ _
/-- The embeddings are still there at the return: the second result. -/
theorem embeddings : W14 m ρ c (Proc.devRef .tc main_v74) = val_main_v82 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (Carry.emb_at14 m ρ c).trans (y2 m ρ c)

end Cert.Chain

end
-- ==== Proof.lean ====
/-
  A three-layer graph convolution network over 100000 nodes and 1.6 million edges, with a linear classifier on
  top: the kernel program against its plain reference, on the extended reals.

  Both programs build the same edge list (every edge of `edge_index` plus one self loop per node) and the same
  symmetric normalisation `norm e = dis (src e) · dis (dst e)`, `dis = 1/√deg` where the degree is positive and 0
  elsewhere. A layer is `h ↦ act (A (h · W) + b)`, where `A` gathers rows at `src`, scales row `e` by `norm e` and adds
  them up at `dst`; the activation is the identity on the first layer and the hyperbolic tangent on the other two;
  the results are the logits `embeddings · Wc + bc` and the embeddings themselves.

  The reference does all of it with host operations. The kernel program does `A` with the very same host
  operations, and each `h · W` and each `act (· + b)` in a grid launch over ten blocks of 10000 rows. On the
  extended reals the two agree stage by stage, with no law beyond that: a launch's matrix product into a zero
  accumulator, after a change of float format that is the identity there, is the host's `dot_general` (the same
  sum over the contracted axis, block by block); the launch's row-wise add of the bias is the host's add of the
  bias broadcast over the rows, and the two hyperbolic tangents are one function; and ten row blocks tile the
  array. Nothing is re-associated or distributed, so the inputs' finiteness is never used.

  The pieces: `Proof/Linear0, 2, 4, 6` and `Proof/Bias1, 3, 5, 7` (each launch's output array as one whole-array
  function of its two inputs), `Proof/EdgeMix` (the host operations between the launches as pure functions),
  `Proof/Carry` (which buffers pass unchanged across which segments), `Proof/Bridge` (each of those functions is the
  reference's stage at the same place), `Proof/Chain` (the kernel's buffer contents, boundary by boundary, are the
  reference's stages of the launch arguments), `Proof/KernelRun` (the kernel's run with its two results read) and
  `Proof/RefRead` (the reference's run and its stages). The ideal pass rewrote nothing in the kernel, so the
  idealization claim has no conjunct.
-/
import proofs.«112940_j82952998355483_1_alg».proof.Defs
import proofs.«112940_j82952998355483_1_alg».proof.Proof.Gen.Kernel
import proofs.«112940_j82952998355483_1_alg».proof.Proof.Gen.Kernel.Frame
import proofs.«112940_j82952998355483_1_alg».proof.Proof.Gen.KernelIdeal
import proofs.«112940_j82952998355483_1_alg».proof.Proof.Gen.KernelIdeal.Frame
import proofs.«112940_j82952998355483_1_alg».proof.Proof.Gen.ReferenceIdeal
import proofs.«112940_j82952998355483_1_alg».proof.Proof.Gen.Pre_finite_inputs
import proofs.«112940_j82952998355483_1_alg».proof.Proof.KernelRun
import proofs.«112940_j82952998355483_1_alg».proof.Proof.Chain
import proofs.«112940_j82952998355483_1_alg».proof.Proof.RefRead
import Idealize.ShloMosaic.Adequacy
import Idealize.ShloMosaic.Init

noncomputable section

namespace Cert.Proof

open Idealize.ShloMosaic Idealize.ShloMosaic.TcCoe Idealize.SL.Sem

namespace Claims

/-- The word-level kernel runs and leaves its arguments as launched. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference has no launch: its frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

/-- From memories agreeing on the ten arguments both programs end with the logits and the embeddings at the
    reference's last two stages of those arguments: the kernel by its run and the walk through its boundaries, the
    reference by its run read one operation at a time. -/
theorem algebraic : Cert.algebraic_KernelIdeal_ReferenceIdeal := by
  intro m ρ m' ρ' _ hagree
  refine ⟨fun c => Cert.ReferenceIdeal.ReadP.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.ReadP.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Results.run_results (F := Ideal) m ρ)
    obtain ⟨h76, h74, hargs⟩ := h c
    exact ⟨h76.trans (Cert.Chain.logits m ρ c), h74.trans (Cert.Chain.embeddings m ρ c), hargs⟩
  · refine (θ_run Cert.ReferenceIdeal.defs _ _).mono (fun r h c => ?_) (Cert.ReferenceIdeal.ValueP.run (F := Ideal) m' ρ')
    obtain ⟨h86, h82, hargs⟩ := h c
    obtain ⟨e0, e1, e2, e3, e4, e5, e6, e7, e8, e9⟩ := hagree c
    refine ⟨h86.trans ?_, h82.trans ?_, hargs⟩
    · rw [Cert.ReferenceIdeal.ReadP.val_main_v86_eq, e0, e1, e2, e3, e4, e5, e6, e7, e8, e9]
    · rw [Cert.ReferenceIdeal.ReadP.val_main_v82_eq, e0, e1, e2, e3, e4, e5, e6, e7]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
